-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x96x96 : Shape := ⟨4, ![8, 32, 96, 96]⟩
abbrev S32x32x3x3 : Shape := ⟨4, ![32, 32, 3, 3]⟩
abbrev S_ : Shape := ⟨0, ![]⟩

class Facts : Prop where
  bcast_S_S8x32x96x96 : S_.BroadcastsInDim S8x32x96x96 (![] : Fin 0 → Fin S8x32x96x96.rank)
  reducesTo_S8x32x96x96_S_d0_1_2_3 : S8x32x96x96.ReducesTo [0, 1, 2, 3] S_
  h_S_ : 0 < S_.numel
  bcast_S_S32x32x3x3 : S_.BroadcastsInDim S32x32x3x3 (![] : Fin 0 → Fin S32x32x3x3.rank)
  reducesTo_S32x32x3x3_S_d0_1_2_3 : S32x32x3x3.ReducesTo [0, 1, 2, 3] S_

variable [Facts]

def fn {F : FTy → Type} [FloatOps F] (main_arg0 : FVec F S8x32x96x96 .f32) (main_arg1 : FVec F S32x32x3x3 .f32) : IVec S_ 1 :=
  let main_v0 : FVec F S8x32x96x96 .f32 := Host.absf main_arg0
  let main_cst : FVec F S_ .f32 := constant S_ .f32 0x7F800000#32
  let main_v1 : FVec F S8x32x96x96 .f32 := broadcastInDim S8x32x96x96 ![] bcast_S_S8x32x96x96 main_cst
  let main_v2 : IVec S8x32x96x96 1 := cmpf .olt main_v0 main_v1
  let main_c : IVec S_ 1 := constantI S_ 1 1#1
  let main_v3 : IVec S_ 1 := (fun x v => Host.reduce IntOp.andi x v reducesTo_S8x32x96x96_S_d0_1_2_3 h_S_) main_v2 main_c
  let main_v4 : FVec F S32x32x3x3 .f32 := Host.absf main_arg1
  let main_cst_0 : FVec F S_ .f32 := constant S_ .f32 0x7F800000#32
  let main_v5 : FVec F S32x32x3x3 .f32 := broadcastInDim S32x32x3x3 ![] bcast_S_S32x32x3x3 main_cst_0
  let main_v6 : IVec S32x32x3x3 1 := cmpf .olt main_v4 main_v5
  let main_c_1 : IVec S_ 1 := constantI S_ 1 1#1
  let main_v7 : IVec S_ 1 := (fun x v => Host.reduce IntOp.andi x v reducesTo_S32x32x3x3_S_d0_1_2_3 h_S_) main_v6 main_c_1
  let main_v8 : IVec S_ 1 := andi main_v3 main_v7
  main_v8
-- ==== Kernel.lean ====
abbrev S8x32x96x96 : Shape := ⟨4, ![8, 32, 96, 96]⟩
abbrev S32x32x3x3 : Shape := ⟨4, ![32, 32, 3, 3]⟩
abbrev S_ : Shape := ⟨0, ![]⟩
abbrev S8x32x98x98 : Shape := ⟨4, ![8, 32, 98, 98]⟩
abbrev S32x3x3x32 : Shape := ⟨4, ![32, 3, 3, 32]⟩
abbrev S1x32x98x98 : Shape := ⟨4, ![1, 32, 98, 98]⟩
abbrev S1x32x96x96 : Shape := ⟨4, ![1, 32, 96, 96]⟩
abbrev S32x96x96 : Shape := ⟨3, ![32, 96, 96]⟩
abbrev S1x1x98x98 : Shape := ⟨4, ![1, 1, 98, 98]⟩
abbrev S98x98 : Shape := ⟨2, ![98, 98]⟩
abbrev S96x96 : Shape := ⟨2, ![96, 96]⟩
abbrev S1x3x3x32 : Shape := ⟨4, ![1, 3, 3, 32]⟩
abbrev S3x3x32 : Shape := ⟨3, ![3, 3, 32]⟩
abbrev S1x1x32 : Shape := ⟨3, ![1, 1, 32]⟩
abbrev S32 : Shape := ⟨1, ![32]⟩
abbrev S1x96x96 : Shape := ⟨3, ![1, 96, 96]⟩
abbrev S32x1x1 : Shape := ⟨3, ![32, 1, 1]⟩

abbrev nBuf : Space → Nat
  | .hbm => 7
  | .vmem => 5
  | .smem => 0
  | _ => 0

abbrev bufTy : (tb : Table) → Fin (tcTables nBuf tb) → BufTy
  | .hbm, ⟨0, _⟩ => ⟨S8x32x96x96, .f32⟩
  | .hbm, ⟨1, _⟩ => ⟨S32x32x3x3, .f32⟩
  | .hbm, ⟨2, _⟩ => ⟨S_, .f32⟩
  | .hbm, ⟨3, _⟩ => ⟨S_, .f32⟩
  | .hbm, ⟨4, _⟩ => ⟨S8x32x98x98, .f32⟩
  | .hbm, ⟨5, _⟩ => ⟨S32x3x3x32, .f32⟩
  | .hbm, ⟨6, _⟩ => ⟨S8x32x96x96, .f32⟩
  | .local _ .vmem, ⟨0, _⟩ => ⟨S1x32x98x98, .f32⟩
  | .local _ .vmem, ⟨1, _⟩ => ⟨S1x32x98x98, .f32⟩
  | .local _ .vmem, ⟨2, _⟩ => ⟨S32x3x3x32, .f32⟩
  | .local _ .vmem, ⟨3, _⟩ => ⟨S1x32x96x96, .f32⟩
  | .local _ .vmem, ⟨4, _⟩ => ⟨S1x32x96x96, .f32⟩
  | _, _ => ⟨S8x32x96x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c32_i32 : BitVec 32 := 32#32
  let v1 : BitVec 32 := Scalar.addi c0_i32 c32_i32
  let c1_i32 : BitVec 32 := 1#32
  ⟨c0_i32, v1, c1_i32⟩
def k0_off1 (k0_t1 : Fin k0_t1_loop.trips) : Fin 4 → Nat :=
  let c0_36 : Index := 0#32
  let c0_i32 : BitVec 32 := 0#32
  let c1_i32 : BitVec 32 := 1#32
  let arg4 : BitVec 32 := Scf.iv c0_i32 c1_i32 k0_t1
  let v22 : Index := Scalar.indexCast arg4
  let c0_37 : Index := 0#32
  let c0_38 : Index := 0#32
  ![0, v22.toNat, 0, 0]
def k0_off2 (k0_t1 : Fin k0_t1_loop.trips) : Fin 4 → Nat :=
  let c0_i32 : BitVec 32 := 0#32
  let c1_i32 : BitVec 32 := 1#32
  let arg4 : BitVec 32 := Scf.iv c0_i32 c1_i32 k0_t1
  let v26 : Index := Scalar.indexCast arg4
  let c0_39 : Index := 0#32
  let c0_40 : Index := 0#32
  let c0_41 : Index := 0#32
  ![v26.toNat, 0, 0, 0]
@[reducible] def k0_t2_loop : Scf.Loop 32 :=
  let c0_i32_1 : BitVec 32 := 0#32
  let c32_i32_2 : BitVec 32 := 32#32
  let v3 : BitVec 32 := Scalar.addi c0_i32_1 c32_i32_2
  let c1_i32_3 : BitVec 32 := 1#32
  ⟨c0_i32_1, v3, c1_i32_3⟩
def k0_off3 (k0_t2 : Fin k0_t2_loop.trips) : Fin 4 → Nat :=
  let c0_36 : Index := 0#32
  let c0_i32_1 : BitVec 32 := 0#32
  let c1_i32_3 : BitVec 32 := 1#32
  let arg4 : BitVec 32 := Scf.iv c0_i32_1 c1_i32_3 k0_t2
  let v22 : Index := Scalar.indexCast arg4
  let c0_37 : Index := 0#32
  let c0_38 : Index := 0#32
  ![0, v22.toNat, 0, 0]
def k0_off4 (k0_t2 : Fin k0_t2_loop.trips) : Fin 4 → Nat :=
  let c0_i32_1 : BitVec 32 := 0#32
  let c1_i32_3 : BitVec 32 := 1#32
  let arg4 : BitVec 32 := Scf.iv c0_i32_1 c1_i32_3 k0_t2
  let v26 : Index := Scalar.indexCast arg4
  let c0_39 : Index := 0#32
  let c0_40 : Index := 0#32
  let c0_41 : Index := 0#32
  ![v26.toNat, 0, 0, 0]
@[reducible] def k0_t3_loop : Scf.Loop 32 :=
  let c0_i32_5 : BitVec 32 := 0#32
  let c32_i32_6 : BitVec 32 := 32#32
  let v5 : BitVec 32 := Scalar.addi c0_i32_5 c32_i32_6
  let c1_i32_7 : BitVec 32 := 1#32
  ⟨c0_i32_5, v5, c1_i32_7⟩
def k0_off5 (k0_t3 : Fin k0_t3_loop.trips) : Fin 4 → Nat :=
  let c0_36 : Index := 0#32
  let c0_i32_5 : BitVec 32 := 0#32
  let c1_i32_7 : BitVec 32 := 1#32
  let arg4 : BitVec 32 := Scf.iv c0_i32_5 c1_i32_7 k0_t3
  let v22 : Index := Scalar.indexCast arg4
  let c0_37 : Index := 0#32
  let c0_38 : Index := 0#32
  ![0, v22.toNat, 0, 0]
def k0_off6 (k0_t3 : Fin k0_t3_loop.trips) : Fin 4 → Nat :=
  let c0_i32_5 : BitVec 32 := 0#32
  let c1_i32_7 : BitVec 32 := 1#32
  let arg4 : BitVec 32 := Scf.iv c0_i32_5 c1_i32_7 k0_t3
  let v26 : Index := Scalar.indexCast arg4
  let c0_39 : Index := 0#32
  let c0_40 : Index := 0#32
  let c0_41 : Index := 0#32
  ![v26.toNat, 0, 0, 0]
@[reducible] def k0_t4_loop : Scf.Loop 32 :=
  let c0_i32_9 : BitVec 32 := 0#32
  let c32_i32_10 : BitVec 32 := 32#32
  let v7 : BitVec 32 := Scalar.addi c0_i32_9 c32_i32_10
  let c1_i32_11 : BitVec 32 := 1#32
  ⟨c0_i32_9, v7, c1_i32_11⟩
def k0_off7 (k0_t4 : Fin k0_t4_loop.trips) : Fin 4 → Nat :=
  let c0_36 : Index := 0#32
  let c0_i32_9 : BitVec 32 := 0#32
  let c1_i32_11 : BitVec 32 := 1#32
  let arg4 : BitVec 32 := Scf.iv c0_i32_9 c1_i32_11 k0_t4
  let v22 : Index := Scalar.indexCast arg4
  let c0_37 : Index := 0#32
  let c0_38 : Index := 0#32
  ![0, v22.toNat, 0, 0]
def k0_off8 (k0_t4 : Fin k0_t4_loop.trips) : Fin 4 → Nat :=
  let c0_i32_9 : BitVec 32 := 0#32
  let c1_i32_11 : BitVec 32 := 1#32
  let arg4 : BitVec 32 := Scf.iv c0_i32_9 c1_i32_11 k0_t4
  let v26 : Index := Scalar.indexCast arg4
  let c0_39 : Index := 0#32
  let c0_40 : Index := 0#32
  let c0_41 : Index := 0#32
  ![v26.toNat, 0, 0, 0]
@[reducible] def k0_t5_loop : Scf.Loop 32 :=
  let c0_i32_13 : BitVec 32 := 0#32
  let c32_i32_14 : BitVec 32 := 32#32
  let v9 : BitVec 32 := Scalar.addi c0_i32_13 c32_i32_14
  let c1_i32_15 : BitVec 32 := 1#32
  ⟨c0_i32_13, v9, c1_i32_15⟩
def k0_off9 (k0_t5 : Fin k0_t5_loop.trips) : Fin 4 → Nat :=
  let c0_36 : Index := 0#32
  let c0_i32_13 : BitVec 32 := 0#32
  let c1_i32_15 : BitVec 32 := 1#32
  let arg4 : BitVec 32 := Scf.iv c0_i32_13 c1_i32_15 k0_t5
  let v22 : Index := Scalar.indexCast arg4
  let c0_37 : Index := 0#32
  let c0_38 : Index := 0#32
  ![0, v22.toNat, 0, 0]
def k0_off10 (k0_t5 : Fin k0_t5_loop.trips) : Fin 4 → Nat :=
  let c0_i32_13 : BitVec 32 := 0#32
  let c1_i32_15 : BitVec 32 := 1#32
  let arg4 : BitVec 32 := Scf.iv c0_i32_13 c1_i32_15 k0_t5
  let v26 : Index := Scalar.indexCast arg4
  let c0_39 : Index := 0#32
  let c0_40 : Index := 0#32
  let c0_41 : Index := 0#32
  ![v26.toNat, 0, 0, 0]
@[reducible] def k0_t6_loop : Scf.Loop 32 :=
  let c0_i32_17 : BitVec 32 := 0#32
  let c32_i32_18 : BitVec 32 := 32#32
  let v11 : BitVec 32 := Scalar.addi c0_i32_17 c32_i32_18
  let c1_i32_19 : BitVec 32 := 1#32
  ⟨c0_i32_17, v11, c1_i32_19⟩
def k0_off11 (k0_t6 : Fin k0_t6_loop.trips) : Fin 4 → Nat :=
  let c0_36 : Index := 0#32
  let c0_i32_17 : BitVec 32 := 0#32
  let c1_i32_19 : BitVec 32 := 1#32
  let arg4 : BitVec 32 := Scf.iv c0_i32_17 c1_i32_19 k0_t6
  let v22 : Index := Scalar.indexCast arg4
  let c0_37 : Index := 0#32
  let c0_38 : Index := 0#32
  ![0, v22.toNat, 0, 0]
def k0_off12 (k0_t6 : Fin k0_t6_loop.trips) : Fin 4 → Nat :=
  let c0_i32_17 : BitVec 32 := 0#32
  let c1_i32_19 : BitVec 32 := 1#32
  let arg4 : BitVec 32 := Scf.iv c0_i32_17 c1_i32_19 k0_t6
  let v26 : Index := Scalar.indexCast arg4
  let c0_39 : Index := 0#32
  let c0_40 : Index := 0#32
  let c0_41 : Index := 0#32
  ![v26.toNat, 0, 0, 0]
@[reducible] def k0_t7_loop : Scf.Loop 32 :=
  let c0_i32_21 : BitVec 32 := 0#32
  let c32_i32_22 : BitVec 32 := 32#32
  let v13 : BitVec 32 := Scalar.addi c0_i32_21 c32_i32_22
  let c1_i32_23 : BitVec 32 := 1#32
  ⟨c0_i32_21, v13, c1_i32_23⟩
def k0_off13 (k0_t7 : Fin k0_t7_loop.trips) : Fin 4 → Nat :=
  let c0_36 : Index := 0#32
  let c0_i32_21 : BitVec 32 := 0#32
  let c1_i32_23 : BitVec 32 := 1#32
  let arg4 : BitVec 32 := Scf.iv c0_i32_21 c1_i32_23 k0_t7
  let v22 : Index := Scalar.indexCast arg4
  let c0_37 : Index := 0#32
  let c0_38 : Index := 0#32
  ![0, v22.toNat, 0, 0]
def k0_off14 (k0_t7 : Fin k0_t7_loop.trips) : Fin 4 → Nat :=
  let c0_i32_21 : BitVec 32 := 0#32
  let c1_i32_23 : BitVec 32 := 1#32
  let arg4 : BitVec 32 := Scf.iv c0_i32_21 c1_i32_23 k0_t7
  let v26 : Index := Scalar.indexCast arg4
  let c0_39 : Index := 0#32
  let c0_40 : Index := 0#32
  let c0_41 : Index := 0#32
  ![v26.toNat, 0, 0, 0]
@[reducible] def k0_t8_loop : Scf.Loop 32 :=
  let c0_i32_25 : BitVec 32 := 0#32
  let c32_i32_26 : BitVec 32 := 32#32
  let v15 : BitVec 32 := Scalar.addi c0_i32_25 c32_i32_26
  let c1_i32_27 : BitVec 32 := 1#32
  ⟨c0_i32_25, v15, c1_i32_27⟩
def k0_off15 (k0_t8 : Fin k0_t8_loop.trips) : Fin 4 → Nat :=
  let c0_36 : Index := 0#32
  let c0_i32_25 : BitVec 32 := 0#32
  let c1_i32_27 : BitVec 32 := 1#32
  let arg4 : BitVec 32 := Scf.iv c0_i32_25 c1_i32_27 k0_t8
  let v22 : Index := Scalar.indexCast arg4
  let c0_37 : Index := 0#32
  let c0_38 : Index := 0#32
  ![0, v22.toNat, 0, 0]
def k0_off16 (k0_t8 : Fin k0_t8_loop.trips) : Fin 4 → Nat :=
  let c0_i32_25 : BitVec 32 := 0#32
  let c1_i32_27 : BitVec 32 := 1#32
  let arg4 : BitVec 32 := Scf.iv c0_i32_25 c1_i32_27 k0_t8
  let v26 : Index := Scalar.indexCast arg4
  let c0_39 : Index := 0#32
  let c0_40 : Index := 0#32
  let c0_41 : Index := 0#32
  ![v26.toNat, 0, 0, 0]
@[reducible] def k0_t9_loop : Scf.Loop 32 :=
  let c0_i32_29 : BitVec 32 := 0#32
  let c32_i32_30 : BitVec 32 := 32#32
  let v17 : BitVec 32 := Scalar.addi c0_i32_29 c32_i32_30
  let c1_i32_31 : BitVec 32 := 1#32
  ⟨c0_i32_29, v17, c1_i32_31⟩
def k0_off17 (k0_t9 : Fin k0_t9_loop.trips) : Fin 4 → Nat :=
  let c0_36 : Index := 0#32
  let c0_i32_29 : BitVec 32 := 0#32
  let c1_i32_31 : BitVec 32 := 1#32
  let arg4 : BitVec 32 := Scf.iv c0_i32_29 c1_i32_31 k0_t9
  let v22 : Index := Scalar.indexCast arg4
  let c0_37 : Index := 0#32
  let c0_38 : Index := 0#32
  ![0, v22.toNat, 0, 0]
def k0_off18 (k0_t9 : Fin k0_t9_loop.trips) : Fin 4 → Nat :=
  let c0_i32_29 : BitVec 32 := 0#32
  let c1_i32_31 : BitVec 32 := 1#32
  let arg4 : BitVec 32 := Scf.iv c0_i32_29 c1_i32_31 k0_t9
  let v26 : Index := Scalar.indexCast arg4
  let c0_39 : Index := 0#32
  let c0_40 : Index := 0#32
  let c0_41 : Index := 0#32
  ![v26.toNat, 0, 0, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x32x98x98 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x3x3x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x32x96x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  pads_S8x32x96x96_S8x32x98x98_000_000_110_110 : S8x32x96x96.Pads (![0, 0, 1, 1] : Fin 4 → Nat) ![0, 0, 1, 1] ![0, 0, 0, 0] S8x32x98x98
  h_S_ : 0 < S_.numel
  transposes_S32x32x3x3_S32x3x3x32_1_2_3_0 : S32x32x3x3.Transposes [1, 2, 3, 0] S32x3x3x32
  h_S1x1x98x98 : 0 < S1x1x98x98.numel
  shapeCasts_S1x1x98x98_S98x98 : S1x1x98x98.ShapeCasts S98x98
  slices_S98x98_o0_0_S96x96 : S98x98.Slices ![0, 0] S96x96
  h_S1x3x3x32 : 0 < S1x3x3x32.numel
  shapeCasts_S1x3x3x32_S3x3x32 : S1x3x3x32.ShapeCasts S3x3x32
  slices_S3x3x32_o0_0_0_S1x1x32 : S3x3x32.Slices ![0, 0, 0] S1x1x32
  shapeCasts_S1x1x32_S32 : S1x1x32.ShapeCasts S32
  shapeCasts_S96x96_S1x96x96 : S96x96.ShapeCasts S1x96x96
  shapeCasts_S32_S32x1x1 : S32.ShapeCasts S32x1x1
  broadcasts_S1x96x96_S32x96x96 : S1x96x96.Broadcasts S32x96x96
  broadcasts_S32x1x1_S32x96x96 : S32x1x1.Broadcasts S32x96x96
  slices_S98x98_o0_1_S96x96 : S98x98.Slices ![0, 1] S96x96
  slices_S3x3x32_o0_1_0_S1x1x32 : S3x3x32.Slices ![0, 1, 0] S1x1x32
  slices_S98x98_o0_2_S96x96 : S98x98.Slices ![0, 2] S96x96
  slices_S3x3x32_o0_2_0_S1x1x32 : S3x3x32.Slices ![0, 2, 0] S1x1x32
  slices_S98x98_o1_0_S96x96 : S98x98.Slices ![1, 0] S96x96
  slices_S3x3x32_o1_0_0_S1x1x32 : S3x3x32.Slices ![1, 0, 0] S1x1x32
  slices_S98x98_o1_1_S96x96 : S98x98.Slices ![1, 1] S96x96
  slices_S3x3x32_o1_1_0_S1x1x32 : S3x3x32.Slices ![1, 1, 0] S1x1x32
  slices_S98x98_o1_2_S96x96 : S98x98.Slices ![1, 2] S96x96
  slices_S3x3x32_o1_2_0_S1x1x32 : S3x3x32.Slices ![1, 2, 0] S1x1x32
  slices_S98x98_o2_0_S96x96 : S98x98.Slices ![2, 0] S96x96
  slices_S3x3x32_o2_0_0_S1x1x32 : S3x3x32.Slices ![2, 0, 0] S1x1x32
  slices_S98x98_o2_1_S96x96 : S98x98.Slices ![2, 1] S96x96
  slices_S3x3x32_o2_1_0_S1x1x32 : S3x3x32.Slices ![2, 1, 0] S1x1x32
  slices_S98x98_o2_2_S96x96 : S98x98.Slices ![2, 2] S96x96
  slices_S3x3x32_o2_2_0_S1x1x32 : S3x3x32.Slices ![2, 2, 0] S1x1x32
  inb_S1x32x96x96_S1x32x96x96_0_0_0_0 : ∀ a, (![0, 0, 0, 0] : Fin 4 → Nat) a + S1x32x96x96.size a ≤ S1x32x96x96.size a
  h_S1x32x96x96 : 0 < S1x32x96x96.numel
  shapeCasts_S1x32x96x96_S32x96x96 : S1x32x96x96.ShapeCasts S32x96x96
  shapeCasts_S32x96x96_S1x32x96x96 : S32x96x96.ShapeCasts S1x32x96x96
  hrank0 : 0 < grid0.rank
  k0_t1_ok : k0_t1_loop.OK
  k0_off1_inb : ∀ k0_t1 : Fin k0_t1_loop.trips, ∀ a, (k0_off1 k0_t1) a + S1x1x98x98.size a ≤ S1x32x98x98.size a
  k0_off2_inb : ∀ k0_t1 : Fin k0_t1_loop.trips, ∀ a, (k0_off2 k0_t1) a + S1x3x3x32.size a ≤ S32x3x3x32.size a
  k0_t2_ok : k0_t2_loop.OK
  k0_off3_inb : ∀ k0_t2 : Fin k0_t2_loop.trips, ∀ a, (k0_off3 k0_t2) a + S1x1x98x98.size a ≤ S1x32x98x98.size a
  k0_off4_inb : ∀ k0_t2 : Fin k0_t2_loop.trips, ∀ a, (k0_off4 k0_t2) a + S1x3x3x32.size a ≤ S32x3x3x32.size a
  k0_t3_ok : k0_t3_loop.OK
  k0_off5_inb : ∀ k0_t3 : Fin k0_t3_loop.trips, ∀ a, (k0_off5 k0_t3) a + S1x1x98x98.size a ≤ S1x32x98x98.size a
  k0_off6_inb : ∀ k0_t3 : Fin k0_t3_loop.trips, ∀ a, (k0_off6 k0_t3) a + S1x3x3x32.size a ≤ S32x3x3x32.size a
  k0_t4_ok : k0_t4_loop.OK
  k0_off7_inb : ∀ k0_t4 : Fin k0_t4_loop.trips, ∀ a, (k0_off7 k0_t4) a + S1x1x98x98.size a ≤ S1x32x98x98.size a
  k0_off8_inb : ∀ k0_t4 : Fin k0_t4_loop.trips, ∀ a, (k0_off8 k0_t4) a + S1x3x3x32.size a ≤ S32x3x3x32.size a
  k0_t5_ok : k0_t5_loop.OK
  k0_off9_inb : ∀ k0_t5 : Fin k0_t5_loop.trips, ∀ a, (k0_off9 k0_t5) a + S1x1x98x98.size a ≤ S1x32x98x98.size a
  k0_off10_inb : ∀ k0_t5 : Fin k0_t5_loop.trips, ∀ a, (k0_off10 k0_t5) a + S1x3x3x32.size a ≤ S32x3x3x32.size a
  k0_t6_ok : k0_t6_loop.OK
  k0_off11_inb : ∀ k0_t6 : Fin k0_t6_loop.trips, ∀ a, (k0_off11 k0_t6) a + S1x1x98x98.size a ≤ S1x32x98x98.size a
  k0_off12_inb : ∀ k0_t6 : Fin k0_t6_loop.trips, ∀ a, (k0_off12 k0_t6) a + S1x3x3x32.size a ≤ S32x3x3x32.size a
  k0_t7_ok : k0_t7_loop.OK
  k0_off13_inb : ∀ k0_t7 : Fin k0_t7_loop.trips, ∀ a, (k0_off13 k0_t7) a + S1x1x98x98.size a ≤ S1x32x98x98.size a
  k0_off14_inb : ∀ k0_t7 : Fin k0_t7_loop.trips, ∀ a, (k0_off14 k0_t7) a + S1x3x3x32.size a ≤ S32x3x3x32.size a
  k0_t8_ok : k0_t8_loop.OK
  k0_off15_inb : ∀ k0_t8 : Fin k0_t8_loop.trips, ∀ a, (k0_off15 k0_t8) a + S1x1x98x98.size a ≤ S1x32x98x98.size a
  k0_off16_inb : ∀ k0_t8 : Fin k0_t8_loop.trips, ∀ a, (k0_off16 k0_t8) a + S1x3x3x32.size a ≤ S32x3x3x32.size a
  k0_t9_ok : k0_t9_loop.OK
  k0_off17_inb : ∀ k0_t9 : Fin k0_t9_loop.trips, ∀ a, (k0_off17 k0_t9) a + S1x1x98x98.size a ≤ S1x32x98x98.size a
  k0_off18_inb : ∀ k0_t9 : Fin k0_t9_loop.trips, ∀ a, (k0_off18 k0_t9) a + S1x3x3x32.size a ≤ S32x3x3x32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x98x98.size a ≤ S8x32x98x98.size a
  hwx0_0 : ∀ i : grid0.Coords, EltTy.bits .f32 = 32 ∨ (Rect.block (s := S8x32x98x98) S1x32x98x98.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x3x3x32.size a ≤ S32x3x3x32.size a
  hwx0_1 : ∀ i : grid0.Coords, EltTy.bits .f32 = 32 ∨ (Rect.block (s := S32x3x3x32) S32x3x3x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x96x96.size a ≤ S8x32x96x96.size a
  hwx0_2 : ∀ i : grid0.Coords, EltTy.bits .f32 = 32 ∨ (Rect.block (s := S8x32x96x96) S1x32x96x96.size (cc0_transform_2 i) (hinb0_2 i)).WholeWords (EltTy.packing .f32)

variable [Facts₀]

abbrev win0_0 : Pipeline.Window sig grid0 :=
  Pipeline.Window.ofSpec (Memref.whole main_v0) S1x32x98x98.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x3x3x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x32x96x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x32x96x96 : Shape := ⟨4, ![8, 32, 96, 96]⟩
abbrev S32x32x3x3 : Shape := ⟨4, ![32, 32, 3, 3]⟩
abbrev S_ : Shape := ⟨0, ![]⟩
abbrev S8x32x98x98 : Shape := ⟨4, ![8, 32, 98, 98]⟩
abbrev S32x32x1x1 : Shape := ⟨4, ![32, 32, 1, 1]⟩
abbrev S32x32 : Shape := ⟨2, ![32, 32]⟩
abbrev S8x1x32x96x96 : Shape := ⟨5, ![8, 1, 32, 96, 96]⟩
abbrev S1x32x32x1x1 : Shape := ⟨5, ![1, 32, 32, 1, 1]⟩
abbrev S8x32x32x96x96 : Shape := ⟨5, ![8, 32, 32, 96, 96]⟩

abbrev nBuf : Space → Nat
  | .hbm => 103
  | .vmem => 0
  | .smem => 0
  | _ => 0

abbrev bufTy : (tb : Table) → Fin (tcTables nBuf tb) → BufTy
  | .hbm, ⟨0, _⟩ => ⟨S8x32x96x96, .f32⟩
  | .hbm, ⟨1, _⟩ => ⟨S32x32x3x3, .f32⟩
  | .hbm, ⟨2, _⟩ => ⟨S_, .f32⟩
  | .hbm, ⟨3, _⟩ => ⟨S_, .f32⟩
  | .hbm, ⟨4, _⟩ => ⟨S8x32x98x98, .f32⟩
  | .hbm, ⟨5, _⟩ => ⟨S8x32x96x96, .f32⟩
  | .hbm, ⟨6, _⟩ => ⟨S32x32x1x1, .f32⟩
  | .hbm, ⟨7, _⟩ => ⟨S32x32, .f32⟩
  | .hbm, ⟨8, _⟩ => ⟨S8x1x32x96x96, .f32⟩
  | .hbm, ⟨9, _⟩ => ⟨S1x32x32x1x1, .f32⟩
  | .hbm, ⟨10, _⟩ => ⟨S8x32x32x96x96, .f32⟩
  | .hbm, ⟨11, _⟩ => ⟨S8x32x32x96x96, .f32⟩
  | .hbm, ⟨12, _⟩ => ⟨S8x32x32x96x96, .f32⟩
  | .hbm, ⟨13, _⟩ => ⟨S_, .f32⟩
  | .hbm, ⟨14, _⟩ => ⟨S8x32x96x96, .f32⟩
  | .hbm, ⟨15, _⟩ => ⟨S8x32x96x96, .f32⟩
  | .hbm, ⟨16, _⟩ => ⟨S32x32x1x1, .f32⟩
  | .hbm, ⟨17, _⟩ => ⟨S32x32, .f32⟩
  | .hbm, ⟨18, _⟩ => ⟨S8x1x32x96x96, .f32⟩
  | .hbm, ⟨19, _⟩ => ⟨S1x32x32x1x1, .f32⟩
  | .hbm, ⟨20, _⟩ => ⟨S8x32x32x96x96, .f32⟩
  | .hbm, ⟨21, _⟩ => ⟨S8x32x32x96x96, .f32⟩
  | .hbm, ⟨22, _⟩ => ⟨S8x32x32x96x96, .f32⟩
  | .hbm, ⟨23, _⟩ => ⟨S_, .f32⟩
  | .hbm, ⟨24, _⟩ => ⟨S8x32x96x96, .f32⟩
  | .hbm, ⟨25, _⟩ => ⟨S8x32x96x96, .f32⟩
  | .hbm, ⟨26, _⟩ => ⟨S8x32x96x96, .f32⟩
  | .hbm, ⟨27, _⟩ => ⟨S32x32x1x1, .f32⟩
  | .hbm, ⟨28, _⟩ => ⟨S32x32, .f32⟩
  | .hbm, ⟨29, _⟩ => ⟨S8x1x32x96x96, .f32⟩
  | .hbm, ⟨30, _⟩ => ⟨S1x32x32x1x1, .f32⟩
  | .hbm, ⟨31, _⟩ => ⟨S8x32x32x96x96, .f32⟩
  | .hbm, ⟨32, _⟩ => ⟨S8x32x32x96x96, .f32⟩
  | .hbm, ⟨33, _⟩ => ⟨S8x32x32x96x96, .f32⟩
  | .hbm, ⟨34, _⟩ => ⟨S_, .f32⟩
  | .hbm, ⟨35, _⟩ => ⟨S8x32x96x96, .f32⟩
  | .hbm, ⟨36, _⟩ => ⟨S8x32x96x96, .f32⟩
  | .hbm, ⟨37, _⟩ => ⟨S8x32x96x96, .f32⟩
  | .hbm, ⟨38, _⟩ => ⟨S32x32x1x1, .f32⟩
  | .hbm, ⟨39, _⟩ => ⟨S32x32, .f32⟩
  | .hbm, ⟨40, _⟩ => ⟨S8x1x32x96x96, .f32⟩
  | .hbm, ⟨41, _⟩ => ⟨S1x32x32x1x1, .f32⟩
  | .hbm, ⟨42, _⟩ => ⟨S8x32x32x96x96, .f32⟩
  | .hbm, ⟨43, _⟩ => ⟨S8x32x32x96x96, .f32⟩
  | .hbm, ⟨44, _⟩ => ⟨S8x32x32x96x96, .f32⟩
  | .hbm, ⟨45, _⟩ => ⟨S_, .f32⟩
  | .hbm, ⟨46, _⟩ => ⟨S8x32x96x96, .f32⟩
  | .hbm, ⟨47, _⟩ => ⟨S8x32x96x96, .f32⟩
  | .hbm, ⟨48, _⟩ => ⟨S8x32x96x96, .f32⟩
  | .hbm, ⟨49, _⟩ => ⟨S32x32x1x1, .f32⟩
  | .hbm, ⟨50, _⟩ => ⟨S32x32, .f32⟩
  | .hbm, ⟨51, _⟩ => ⟨S8x1x32x96x96, .f32⟩
  | .hbm, ⟨52, _⟩ => ⟨S1x32x32x1x1, .f32⟩
  | .hbm, ⟨53, _⟩ => ⟨S8x32x32x96x96, .f32⟩
  | .hbm, ⟨54, _⟩ => ⟨S8x32x32x96x96, .f32⟩
  | .hbm, ⟨55, _⟩ => ⟨S8x32x32x96x96, .f32⟩
  | .hbm, ⟨56, _⟩ => ⟨S_, .f32⟩
  | .hbm, ⟨57, _⟩ => ⟨S8x32x96x96, .f32⟩
  | .hbm, ⟨58, _⟩ => ⟨S8x32x96x96, .f32⟩
  | .hbm, ⟨59, _⟩ => ⟨S8x32x96x96, .f32⟩
  | .hbm, ⟨60, _⟩ => ⟨S32x32x1x1, .f32⟩
  | .hbm, ⟨61, _⟩ => ⟨S32x32, .f32⟩
  | .hbm, ⟨62, _⟩ => ⟨S8x1x32x96x96, .f32⟩
  | .hbm, ⟨63, _⟩ => ⟨S1x32x32x1x1, .f32⟩
  | .hbm, ⟨64, _⟩ => ⟨S8x32x32x96x96, .f32⟩
  | .hbm, ⟨65, _⟩ => ⟨S8x32x32x96x96, .f32⟩
  | .hbm, ⟨66, _⟩ => ⟨S8x32x32x96x96, .f32⟩
  | .hbm, ⟨67, _⟩ => ⟨S_, .f32⟩
  | .hbm, ⟨68, _⟩ => ⟨S8x32x96x96, .f32⟩
  | .hbm, ⟨69, _⟩ => ⟨S8x32x96x96, .f32⟩
  | .hbm, ⟨70, _⟩ => ⟨S8x32x96x96, .f32⟩
  | .hbm, ⟨71, _⟩ => ⟨S32x32x1x1, .f32⟩
  | .hbm, ⟨72, _⟩ => ⟨S32x32, .f32⟩
  | .hbm, ⟨73, _⟩ => ⟨S8x1x32x96x96, .f32⟩
  | .hbm, ⟨74, _⟩ => ⟨S1x32x32x1x1, .f32⟩
  | .hbm, ⟨75, _⟩ => ⟨S8x32x32x96x96, .f32⟩
  | .hbm, ⟨76, _⟩ => ⟨S8x32x32x96x96, .f32⟩
  | .hbm, ⟨77, _⟩ => ⟨S8x32x32x96x96, .f32⟩
  | .hbm, ⟨78, _⟩ => ⟨S_, .f32⟩
  | .hbm, ⟨79, _⟩ => ⟨S8x32x96x96, .f32⟩
  | .hbm, ⟨80, _⟩ => ⟨S8x32x96x96, .f32⟩
  | .hbm, ⟨81, _⟩ => ⟨S8x32x96x96, .f32⟩
  | .hbm, ⟨82, _⟩ => ⟨S32x32x1x1, .f32⟩
  | .hbm, ⟨83, _⟩ => ⟨S32x32, .f32⟩
  | .hbm, ⟨84, _⟩ => ⟨S8x1x32x96x96, .f32⟩
  | .hbm, ⟨85, _⟩ => ⟨S1x32x32x1x1, .f32⟩
  | .hbm, ⟨86, _⟩ => ⟨S8x32x32x96x96, .f32⟩
  | .hbm, ⟨87, _⟩ => ⟨S8x32x32x96x96, .f32⟩
  | .hbm, ⟨88, _⟩ => ⟨S8x32x32x96x96, .f32⟩
  | .hbm, ⟨89, _⟩ => ⟨S_, .f32⟩
  | .hbm, ⟨90, _⟩ => ⟨S8x32x96x96, .f32⟩
  | .hbm, ⟨91, _⟩ => ⟨S8x32x96x96, .f32⟩
  | .hbm, ⟨92, _⟩ => ⟨S8x32x96x96, .f32⟩
  | .hbm, ⟨93, _⟩ => ⟨S32x32x1x1, .f32⟩
  | .hbm, ⟨94, _⟩ => ⟨S32x32, .f32⟩
  | .hbm, ⟨95, _⟩ => ⟨S8x1x32x96x96, .f32⟩
  | .hbm, ⟨96, _⟩ => ⟨S1x32x32x1x1, .f32⟩
  | .hbm, ⟨97, _⟩ => ⟨S8x32x32x96x96, .f32⟩
  | .hbm, ⟨98, _⟩ => ⟨S8x32x32x96x96, .f32⟩
  | .hbm, ⟨99, _⟩ => ⟨S8x32x32x96x96, .f32⟩
  | .hbm, ⟨100, _⟩ => ⟨S_, .f32⟩
  | .hbm, ⟨101, _⟩ => ⟨S8x32x96x96, .f32⟩
  | .hbm, ⟨102, _⟩ => ⟨S8x32x96x96, .f32⟩
  | _, _ => ⟨S8x32x96x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_3 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_cst_4 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_cst_5 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_cst_6 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_cst_7 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_cst_8 : Ref sig .tc := ⟨.hbm, 100, rfl⟩
abbrev main_v88 : Ref sig .tc := ⟨.hbm, 101, rfl⟩
abbrev main_v89 : Ref sig .tc := ⟨.hbm, 102, rfl⟩

abbrev nD : Nat := 1
abbrev τ : Topo := Topo.v7x

variable {F : FTy → Type} [FloatOps F]

class Facts₀ : Prop where
  pads_S8x32x96x96_S8x32x98x98_000_000_110_110 : S8x32x96x96.Pads (![0, 0, 1, 1] : Fin 4 → Nat) ![0, 0, 1, 1] ![0, 0, 0, 0] S8x32x98x98
  h_S_ : 0 < S_.numel
  slices_S8x32x98x98_S8x32x96x96_0_0_0_0 : S8x32x98x98.Slices ![0, 0, 0, 0] S8x32x96x96
  slices_S32x32x3x3_S32x32x1x1_0_0_0_0 : S32x32x3x3.Slices ![0, 0, 0, 0] S32x32x1x1
  shapeCasts_S32x32x1x1_S32x32 : S32x32x1x1.ShapeCasts S32x32
  bcast_S8x32x96x96_S8x1x32x96x96_0_2_3_4 : S8x32x96x96.BroadcastsInDim S8x1x32x96x96 (![0, 2, 3, 4] : Fin 4 → Fin S8x1x32x96x96.rank)
  bcast_S32x32_S1x32x32x1x1_1_2 : S32x32.BroadcastsInDim S1x32x32x1x1 (![1, 2] : Fin 2 → Fin S1x32x32x1x1.rank)
  bcast_S8x1x32x96x96_S8x32x32x96x96_0_1_2_3_4 : S8x1x32x96x96.BroadcastsInDim S8x32x32x96x96 (![0, 1, 2, 3, 4] : Fin 5 → Fin S8x32x32x96x96.rank)
  bcast_S1x32x32x1x1_S8x32x32x96x96_0_1_2_3_4 : S1x32x32x1x1.BroadcastsInDim S8x32x32x96x96 (![0, 1, 2, 3, 4] : Fin 5 → Fin S8x32x32x96x96.rank)
  reducesTo_S8x32x32x96x96_S8x32x96x96_d2 : S8x32x32x96x96.ReducesTo [2] S8x32x96x96
  slices_S8x32x98x98_S8x32x96x96_0_0_0_1 : S8x32x98x98.Slices ![0, 0, 0, 1] S8x32x96x96
  slices_S32x32x3x3_S32x32x1x1_0_0_0_1 : S32x32x3x3.Slices ![0, 0, 0, 1] S32x32x1x1
  slices_S8x32x98x98_S8x32x96x96_0_0_0_2 : S8x32x98x98.Slices ![0, 0, 0, 2] S8x32x96x96
  slices_S32x32x3x3_S32x32x1x1_0_0_0_2 : S32x32x3x3.Slices ![0, 0, 0, 2] S32x32x1x1
  slices_S8x32x98x98_S8x32x96x96_0_0_1_0 : S8x32x98x98.Slices ![0, 0, 1, 0] S8x32x96x96
  slices_S32x32x3x3_S32x32x1x1_0_0_1_0 : S32x32x3x3.Slices ![0, 0, 1, 0] S32x32x1x1
  slices_S8x32x98x98_S8x32x96x96_0_0_1_1 : S8x32x98x98.Slices ![0, 0, 1, 1] S8x32x96x96
  slices_S32x32x3x3_S32x32x1x1_0_0_1_1 : S32x32x3x3.Slices ![0, 0, 1, 1] S32x32x1x1
  slices_S8x32x98x98_S8x32x96x96_0_0_1_2 : S8x32x98x98.Slices ![0, 0, 1, 2] S8x32x96x96
  slices_S32x32x3x3_S32x32x1x1_0_0_1_2 : S32x32x3x3.Slices ![0, 0, 1, 2] S32x32x1x1
  slices_S8x32x98x98_S8x32x96x96_0_0_2_0 : S8x32x98x98.Slices ![0, 0, 2, 0] S8x32x96x96
  slices_S32x32x3x3_S32x32x1x1_0_0_2_0 : S32x32x3x3.Slices ![0, 0, 2, 0] S32x32x1x1
  slices_S8x32x98x98_S8x32x96x96_0_0_2_1 : S8x32x98x98.Slices ![0, 0, 2, 1] S8x32x96x96
  slices_S32x32x3x3_S32x32x1x1_0_0_2_1 : S32x32x3x3.Slices ![0, 0, 2, 1] S32x32x1x1
  slices_S8x32x98x98_S8x32x96x96_0_0_2_2 : S8x32x98x98.Slices ![0, 0, 2, 2] S8x32x96x96
  slices_S32x32x3x3_S32x32x1x1_0_0_2_2 : S32x32x3x3.Slices ![0, 0, 2, 2] S32x32x1x1

variable [Facts₀]

class Facts : Prop extends Facts₀ where

variable [Facts]
-- ==== Proof.LibRunningMax.lean ====
/-
  Running maxima through their upper bounds, in any linear order.

  A value of a linear order is determined by the set of its upper bounds, and the upper bounds of `max a b` are the common
  upper bounds of `a` and `b`. So a maximum taken step by step (`s (k+1) = max (s k) (g k)`: a loop carrying an accumulator),
  or folded over a finite index type from a start value (a reduction), is below `c` exactly when the start and every
  term are — whatever the order and the grouping of the maxima. Two programs that take the maximum of the same terms
  in different arrangements are compared by showing each has these upper bounds (`eq_of_same_upper`), with no
  rearrangement of the maxima themselves and no finiteness hypothesis.
-/
import Mathlib.Order.Lattice
import Mathlib.Data.Finset.Fold

namespace Cert.MaxMin

/-- A running maximum: if each step takes the maximum of the value so far with `g k`, then after `n` steps the value is
    below `c` exactly when the start and every `g k`, `k < n`, are. -/
theorem running_max_le {α : Type} [LinearOrder α] (s g : ℕ → α) (n : ℕ)
    (h : ∀ k, k < n → s (k + 1) = max (s k) (g k)) (c : α) :
    s n ≤ c ↔ s 0 ≤ c ∧ ∀ k, k < n → g k ≤ c := by
  induction n with
  | zero => exact ⟨fun h0 => ⟨h0, fun k hk => absurd hk (Nat.not_lt_zero k)⟩, fun h0 => h0.1⟩
  | succ n ih =>
    have ih' := ih (fun k hk => h k (Nat.lt_succ_of_lt hk))
    rw [h n (Nat.lt_succ_self n), max_le_iff, ih']
    constructor
    · rintro ⟨⟨h0, hk⟩, hn⟩
      refine ⟨h0, fun k hk' => ?_⟩
      rcases Nat.lt_succ_iff_lt_or_eq.1 hk' with hlt | rfl
      · exact hk k hlt
      · exact hn
    · rintro ⟨h0, hk⟩
      exact ⟨⟨h0, fun k hk' => hk k (Nat.lt_succ_of_lt hk')⟩, hk n (Nat.lt_succ_self n)⟩

/-- The fold of `max` over a whole finite index type, from `b`: below `c` exactly when `b` and every term are. -/
theorem fold_max_univ_le {α ι : Type} [LinearOrder α] [Fintype ι] (b : α) (f : ι → α) (c : α) :
    (Finset.univ : Finset ι).fold max b f ≤ c ↔ b ≤ c ∧ ∀ x, f x ≤ c := by
  rw [Finset.fold_max_le]
  exact ⟨fun h => ⟨h.1, fun x => h.2 x (Finset.mem_univ x)⟩, fun h => ⟨h.1, fun x _ => h.2 x⟩⟩

/-- Two values with the same upper bounds are equal. -/
theorem eq_of_same_upper {α : Type} [LinearOrder α] {a b : α} (h : ∀ c, a ≤ c ↔ b ≤ c) : a = b :=
  eq_of_forall_ge_iff h

end Cert.MaxMin
-- ==== Proof.MaxMinSpec.lean ====
/-
  The max–min "convolution" as one function of the padded input and the weights: the specification both programs are
  compared with, through their UPPER BOUNDS (the order facts are in LibRunningMax.lean). Its value at an entry is the
  supremum of 288 terms, so its upper bounds are the common upper bounds of the terms (`conv_le`): this is all the algebra
  the comparison needs (no finiteness: `max` and `min` are total on the extended reals).
-/
import proofs.«136413_j72988674228358_2_alg».proof.Proof.LibRunningMax
import Mathlib.Data.Finset.Lattice.Fold
import Mathlib.Data.EReal.Basic
import Idealize.ShloMosaic.PureOps.Ideal
import Idealize.ShloMosaic.Lib.ValueIdx

noncomputable section

namespace Cert.MaxMin

open Idealize.ShloMosaic Idealize.ShloMosaic.ValueIdx

/-- The f32 pattern 0xFF800000 is −∞, the least extended real: the start of every running maximum, below every bound. -/
theorem ninf_eq_bot : Ideal.ofBits .f32 0xFF800000#32 = (⊥ : EReal) := by simp [Ideal.ofBits, Ideal.ieee]

/-! ## The specification -/

/-- Row (or column) `i` of the output moved by a tap's offset `d`: a row (column) of the padded plane. -/
def sh (i : Fin 96) (d : Fin 3) : Fin 98 := ⟨i.val + d.val, by have := i.isLt; have := d.isLt; omega⟩

/-- THE SPECIFICATION: the max–min "convolution" of the padded input `P` [8, 32, 98, 98] with the weights `K`
    [oc, ic, kh, kw] = [32, 32, 3, 3]. Entry (n, oc, r, q) is the largest, over the 3 × 3 taps (kh, kw) and the 32 input
    channels ic, of `min (P (n, ic, r + kh, q + kw)) (K (oc, ic, kh, kw))` (the supremum of the 288 terms; on the extended
    reals the supremum of a finite family is its maximum, and that of no terms is −∞). -/
def conv (P : (⟨4, ![8, 32, 98, 98]⟩ : Shape).Idx → EReal) (K : (⟨4, ![32, 32, 3, 3]⟩ : Shape).Idx → EReal) :
    (⟨4, ![8, 32, 96, 96]⟩ : Shape).Idx → EReal :=
  fun idx => (Finset.univ : Finset (Fin 3 × Fin 3 × Fin 32)).sup fun p =>
    min (P (ix4 (idx 0) p.2.2 (sh (idx 2) p.1) (sh (idx 3) p.2.1))) (K (ix4 (idx 1) p.2.2 p.1 p.2.1))

/-- Its upper bounds: `c` bounds entry (n, oc, r, q) exactly when it bounds each of the 288 terms. -/
theorem conv_le (P : (⟨4, ![8, 32, 98, 98]⟩ : Shape).Idx → EReal) (K : (⟨4, ![32, 32, 3, 3]⟩ : Shape).Idx → EReal)
    (n : Fin 8) (oc : Fin 32) (r q : Fin 96) (c : EReal) :
    conv P K (ix4 n oc r q) ≤ c
      ↔ ∀ (kh kw : Fin 3) (ic : Fin 32), min (P (ix4 n ic (sh r kh) (sh q kw))) (K (ix4 oc ic kh kw)) ≤ c := by
  unfold conv
  rw [Finset.sup_le_iff]
  constructor
  · intro h kh kw ic; exact h (kh, kw, ic) (Finset.mem_univ _)
  · intro h p _; exact h p.1 p.2.1 p.2.2

end Cert.MaxMin

end
-- ==== Proof.KernelTap.lean ====
/-
  One tap of the kernel's body, read at an entry.

  The body keeps a running maximum `acc` over an [32, 96, 96] block (output channel, row, column). One trip of one of
  its nine loops loads plane `ic` of the padded input block (a [1, 1, 98, 98] window) and row `ic` of the weights
  laid out as [ic, kh, kw, oc] (a [1, 3, 3, 32] window), cuts the 96 × 96 window of the plane that starts at the tap's
  offset (kh, kw), takes the weights' 32-vector at (kh, kw), spreads the first over the channels and the second over
  the plane, and replaces `acc` by `max acc (min window weights)`. At entry (oc, i, j) that is
  `max (acc (oc, i, j)) (min (plane (i + kh, j + kw)) (weights (kh, kw, oc)))`: every operation but `min` and `max`
  only moves entries, so the proof follows one entry through the casts, the slices and the two broadcasts.
-/
import proofs.«136413_j72988674228358_2_alg».proof.Proof.GenFix.KernelIdeal.Loops
import proofs.«136413_j72988674228358_2_alg».proof.Proof.MaxMinSpec
import Idealize.ShloMosaic.Lib.Pipeline.Value
import Idealize.ShloMosaic.Lib.ValueIdx
import Idealize.ShloMosaic.Lib.WholeRead

set_option maxRecDepth 16384

noncomputable section

namespace Cert.KernelIdeal.Tap

open Cert.KernelIdeal Cert.KernelIdeal.Gen Cert.MaxMin Idealize.ShloMosaic Idealize.ShloMosaic.ValueIdx Idealize.ShloMosaic.TcCoe

/-- The term one (tap, input channel) pair contributes to output entry (oc, i, j) of a block: the smaller of the padded
    input at (ic, i + kh, j + kw) and the weight at (ic, kh, kw, oc). -/
def term (x0 : Vec Ideal S1x32x98x98 .f32) (x1 : Vec Ideal S32x3x3x32 .f32) (kh kw : Fin 3) (ic oc : Fin 32) (i j : Fin 96) : EReal :=
  min (x0 (ix4 0 ic (sh i kh) (sh j kw))) (x1 (ix4 ic kh kw oc))

/-- One trip's arithmetic at tap (kh, kw), read at entry (oc, i, j). -/
theorem tap_apply (kh kw : Fin 3) (h2 : S98x98.Slices ![kh.val, kw.val] S96x96) (h3 : S3x3x32.Slices ![kh.val, kw.val, 0] S1x1x32)
    (acc : FVec Ideal S32x96x96 .f32) (v23 : Vec Ideal S1x1x98x98 .f32) (v27 : Vec Ideal S1x3x3x32 .f32) (oc : Fin 32) (i j : Fin 96) :
    maximumf acc (minimumf
      (broadcastTo S32x96x96 (shapeCast S1x96x96 (extractStridedSlice S96x96 ![kh.val, kw.val] (shapeCast S98x98 v23 shapeCasts_S1x1x98x98_S98x98) h2) shapeCasts_S96x96_S1x96x96) broadcasts_S1x96x96_S32x96x96)
      (broadcastTo S32x96x96 (shapeCast S32x1x1 (shapeCast S32 (extractStridedSlice S1x1x32 ![kh.val, kw.val, 0] (shapeCast S3x3x32 v27 shapeCasts_S1x3x3x32_S3x3x32) h3) shapeCasts_S1x1x32_S32) shapeCasts_S32_S32x1x1) broadcasts_S32x1x1_S32x96x96))
      (ix3 oc i j)
    = max (acc (ix3 oc i j)) (min (v23 (ix4 0 0 (sh i kh) (sh j kw))) (v27 (ix4 0 kh kw oc))) := by
  have hi := i.isLt; have hj := j.isLt; have hkh := kh.isLt; have hkw := kw.isLt; have hoc := oc.isLt
  have e1 : broadcastTo S32x96x96 (shapeCast S1x96x96 (extractStridedSlice S96x96 ![kh.val, kw.val] (shapeCast S98x98 v23 shapeCasts_S1x1x98x98_S98x98) h2) shapeCasts_S96x96_S1x96x96) broadcasts_S1x96x96_S32x96x96 (ix3 oc i j)
      = v23 (ix4 0 0 (sh i kh) (sh j kw)) := by
    refine (broadcastTo_apply _ _ (ix3 oc i j) (ix3 (0 : Fin 1) i j) ?_).trans ?_
    · intro a; match a with
      | ⟨0, _⟩ => rfl
      | ⟨1, _⟩ => rfl
      | ⟨2, _⟩ => rfl
    refine (shapeCast_apply _ _ (ix3 (0 : Fin 1) i j) (ix2 i j) ?_).trans ?_
    · rw [Shape.rowMajor_val_two, Shape.rowMajor_val_three]
      show i.val * 96 + j.val = ((0 : ℕ) * 96 + i.val) * 96 + j.val
      omega
    refine (extractStridedSlice_apply _ _ _ (ix2 i j) (ix2 (sh i kh) (sh j kw)) ?_).trans ?_
    · intro a; match a with
      | ⟨0, _⟩ => show i.val + kh.val = kh.val + i.val; omega
      | ⟨1, _⟩ => show j.val + kw.val = kw.val + j.val; omega
    refine shapeCast_apply _ _ (ix2 (sh i kh) (sh j kw)) (ix4 (0 : Fin 1) (0 : Fin 1) (sh i kh) (sh j kw)) ?_
    rw [Shape.rowMajor_val_two, Shape.rowMajor_val_four]
    show ((((0 : ℕ) * 1 + 0) * 98 + (i.val + kh.val)) * 98 + (j.val + kw.val)) = (i.val + kh.val) * 98 + (j.val + kw.val)
    omega
  have e2 : broadcastTo S32x96x96 (shapeCast S32x1x1 (shapeCast S32 (extractStridedSlice S1x1x32 ![kh.val, kw.val, 0] (shapeCast S3x3x32 v27 shapeCasts_S1x3x3x32_S3x3x32) h3) shapeCasts_S1x1x32_S32) shapeCasts_S32_S32x1x1) broadcasts_S32x1x1_S32x96x96 (ix3 oc i j)
      = v27 (ix4 0 kh kw oc) := by
    refine (broadcastTo_apply _ _ (ix3 oc i j) (ix3 oc (0 : Fin 1) (0 : Fin 1)) ?_).trans ?_
    · intro a; match a with
      | ⟨0, _⟩ => rfl
      | ⟨1, _⟩ => rfl
      | ⟨2, _⟩ => rfl
    refine (shapeCast_apply _ _ (ix3 oc (0 : Fin 1) (0 : Fin 1)) (ix1 oc) ?_).trans ?_
    · rw [Shape.rowMajor_val_one, Shape.rowMajor_val_three]
      show oc.val = (oc.val * 1 + 0) * 1 + 0
      omega
    refine (shapeCast_apply _ _ (ix1 oc) (ix3 (0 : Fin 1) (0 : Fin 1) oc) ?_).trans ?_
    · rw [Shape.rowMajor_val_one, Shape.rowMajor_val_three]
      show ((0 : ℕ) * 1 + 0) * 32 + oc.val = oc.val
      omega
    refine (extractStridedSlice_apply _ _ _ (ix3 (0 : Fin 1) (0 : Fin 1) oc) (ix3 kh kw oc) ?_).trans ?_
    · intro a; match a with
      | ⟨0, _⟩ => show kh.val = kh.val + 0; omega
      | ⟨1, _⟩ => show kw.val = kw.val + 0; omega
      | ⟨2, _⟩ => show oc.val = 0 + oc.val; omega
    refine shapeCast_apply _ _ (ix3 kh kw oc) (ix4 (0 : Fin 1) kh kw oc) ?_
    rw [Shape.rowMajor_val_three, Shape.rowMajor_val_four]
    show ((((0 : ℕ) * 3 + kh.val) * 3 + kw.val) * 32 + oc.val) = (kh.val * 3 + kw.val) * 32 + oc.val
    omega
  show max (acc (ix3 oc i j)) (min _ _) = _
  rw [e1, e2]

/-- A trip's load of plane `k` of the padded block ([1, 1, 98, 98] at offsets (0, k, 0, 0)), through the whole staging
    buffer held at the block `x0`: entry (0, 0, a, b) of what is loaded is `x0 (0, k, a, b)`. -/
theorem load_plane (arg1 : Memref sig .tc .vmem S1x32x98x98 .f32) (harg1 : arg1.IsWhole) (x0 : Vec Ideal S1x32x98x98 .f32)
    (k : ℕ) (hk : k < 32) (off : Fin 4 → ℕ) (hoff : off = ![0, k, 0, 0]) (inb : ∀ a, off a + S1x1x98x98.size a ≤ S1x32x98x98.size a) (a b : Fin 98) :
    View.readAt (Elt Ideal) arg1.view (Rect.unit (s := S1x32x98x98) off S1x1x98x98.size inb).toLoadRect (harg1.unread x0) (ix4 0 0 a b)
      = x0 (ix4 0 ⟨k, hk⟩ a b) := by
  subst hoff
  rw [harg1.readAt_unread]
  refine congrArg x0 (funext fun d => Fin.ext ?_)
  match d with
  | ⟨0, _⟩ => show 0 + 1 * 0 = 0; omega
  | ⟨1, _⟩ => show k + 1 * 0 = k; omega
  | ⟨2, _⟩ => show 0 + 1 * a.val = a.val; omega
  | ⟨3, _⟩ => show 0 + 1 * b.val = b.val; omega

/-- A trip's load of row `k` of the weights ([1, 3, 3, 32] at offsets (k, 0, 0, 0)): entry (0, kh, kw, oc) of what is
    loaded is `x1 (k, kh, kw, oc)`. -/
theorem load_weights (arg2 : Memref sig .tc .vmem S32x3x3x32 .f32) (harg2 : arg2.IsWhole) (x1 : Vec Ideal S32x3x3x32 .f32)
    (k : ℕ) (hk : k < 32) (off : Fin 4 → ℕ) (hoff : off = ![k, 0, 0, 0]) (inb : ∀ a, off a + S1x3x3x32.size a ≤ S32x3x3x32.size a) (kh kw : Fin 3) (oc : Fin 32) :
    View.readAt (Elt Ideal) arg2.view (Rect.unit (s := S32x3x3x32) off S1x3x3x32.size inb).toLoadRect (harg2.unread x1) (ix4 0 kh kw oc)
      = x1 (ix4 ⟨k, hk⟩ kh kw oc) := by
  subst hoff
  rw [harg2.readAt_unread]
  refine congrArg x1 (funext fun d => Fin.ext ?_)
  match d with
  | ⟨0, _⟩ => show k + 1 * 0 = k; omega
  | ⟨1, _⟩ => show 0 + 1 * kh.val = kh.val; omega
  | ⟨2, _⟩ => show 0 + 1 * kw.val = kw.val; omega
  | ⟨3, _⟩ => show 0 + 1 * oc.val = oc.val; omega

/-! ## A loop of 32 trips is a running maximum over the input channels -/

/-- A carried block whose trip `k` replaces entry (oc, r, q) by its maximum with `g k`: after the 32 trips the entry is below
    `c'` exactly when it was at the start and every `g ic` is. (The order theory is `MaxMin.running_max_le`.) -/
theorem loop_le {n : ℕ} (hn : n = 32) (st : ℕ → FVec Ideal S32x96x96 .f32)
    (R : Fin n → FVec Ideal S32x96x96 .f32 → FVec Ideal S32x96x96 .f32)
    (hsucc : ∀ k : Fin n, st (k.val + 1) = R k (st k.val))
    (g : Fin 32 → EReal) (oc : Fin 32) (r q : Fin 96)
    (hR : ∀ (k : Fin n) (acc : FVec Ideal S32x96x96 .f32), R k acc (ix3 oc r q) = max (acc (ix3 oc r q)) (g ⟨k.val, lt_of_lt_of_eq k.isLt hn⟩))
    (c' : EReal) : st n (ix3 oc r q) ≤ c' ↔ st 0 (ix3 oc r q) ≤ c' ∧ ∀ ic : Fin 32, g ic ≤ c' := by
  subst hn
  have key := Cert.MaxMin.running_max_le (fun k => st k (ix3 oc r q)) (fun k => if h : k < 32 then g ⟨k, h⟩ else ⊥) 32
    (fun k hk => by
      show st (k + 1) (ix3 oc r q) = max (st k (ix3 oc r q)) (if h : k < 32 then g ⟨k, h⟩ else ⊥)
      rw [dif_pos hk, hsucc ⟨k, hk⟩]
      exact hR ⟨k, hk⟩ (st k)) c'
  rw [key]
  constructor
  · rintro ⟨h0, h⟩
    exact ⟨h0, fun ic => by have := h ic.val ic.isLt; rwa [dif_pos ic.isLt] at this⟩
  · rintro ⟨h0, h⟩
    exact ⟨h0, fun k hk => by rw [dif_pos hk]; exact h ⟨k, hk⟩⟩

/-! ### Loop 1: tap (0, 0) -/

theorem trips1 : k0_t1_loop.trips = 32 := by decide +kernel

theorem lt32_1 (k : Fin k0_t1_loop.trips) : k.val < 32 := Nat.lt_of_lt_of_le k.isLt (Nat.le_of_eq trips1)

/-- The loop's arithmetic is the tap's, at offsets (0, 0). -/
theorem pay3_apply (acc : FVec Ideal S32x96x96 .f32) (v23 : Vec Ideal S1x1x98x98 .f32) (v27 : Vec Ideal S1x3x3x32 .f32) (oc : Fin 32) (r q : Fin 96) :
    k0_pay3 acc v23 v27 (ix3 oc r q) = max (acc (ix3 oc r q)) (min (v23 (ix4 0 0 (sh r 0) (sh q 0))) (v27 (ix4 0 0 0 oc))) :=
  tap_apply 0 0 slices_S98x98_o0_0_S96x96 slices_S3x3x32_o0_0_0_S1x1x32 acc v23 v27 oc r q

/-- Trip `k` of loop 1, from the staging buffers held at the blocks `x0`, `x1`: at entry (oc, r, q) the carried value grows by
    the term of input channel `k` at tap (0, 0). -/
theorem trip1_apply (c : Dev nD) (i : grid0.Coords) (arg1 : Memref sig .tc .vmem S1x32x98x98 .f32) (harg1 : arg1.IsWhole) (arg2 : Memref sig .tc .vmem S32x3x3x32 .f32) (harg2 : arg2.IsWhole) (arg3 : Memref sig .tc .vmem S1x32x96x96 .f32) (harg3 : arg3.IsWhole)
    (x0 : Vec Ideal S1x32x98x98 .f32) (x1 : Vec Ideal S32x3x3x32 .f32) (k : Fin k0_t1_loop.trips) (acc : FVec Ideal S32x96x96 .f32) (oc : Fin 32) (r q : Fin 96) :
    tripR_k0_t1 (F := Ideal) Variants.none c none i arg1 harg1 arg2 harg2 arg3 harg3 (harg1.unread x0) (harg2.unread x1) k acc (ix3 oc r q)
      = max (acc (ix3 oc r q)) (term x0 x1 0 0 ⟨k.val, lt32_1 k⟩ oc r q) := by
  unfold tripR_k0_t1 trip_k0_t1
  dsimp only
  rw [pay3_apply]
  unfold term
  rw [load_plane arg1 harg1 x0 k.val (lt32_1 k) _ (k0_off1_eq k), load_weights arg2 harg2 x1 k.val (lt32_1 k) _ (k0_off2_eq k)]

/-- Loop 1 whole, from `init`: entry (oc, r, q) of what it yields is below `c'` exactly when `init`'s entry and the 32 terms of tap (0, 0) are. -/
theorem loop1_le (c : Dev nD) (i : grid0.Coords) (arg1 : Memref sig .tc .vmem S1x32x98x98 .f32) (harg1 : arg1.IsWhole) (arg2 : Memref sig .tc .vmem S32x3x3x32 .f32) (harg2 : arg2.IsWhole) (arg3 : Memref sig .tc .vmem S1x32x96x96 .f32) (harg3 : arg3.IsWhole)
    (x0 : Vec Ideal S1x32x98x98 .f32) (x1 : Vec Ideal S32x3x3x32 .f32) (init : FVec Ideal S32x96x96 .f32) (oc : Fin 32) (r q : Fin 96) (c' : EReal) :
    st_k0_t1 (F := Ideal) Variants.none c none i arg1 harg1 arg2 harg2 arg3 harg3 (harg1.unread x0) (harg2.unread x1) init k0_t1_loop.trips (ix3 oc r q) ≤ c'
      ↔ init (ix3 oc r q) ≤ c' ∧ ∀ ic : Fin 32, term x0 x1 0 0 ic oc r q ≤ c' :=
  loop_le trips1 (st_k0_t1 (F := Ideal) Variants.none c none i arg1 harg1 arg2 harg2 arg3 harg3 (harg1.unread x0) (harg2.unread x1) init)
    (tripR_k0_t1 (F := Ideal) Variants.none c none i arg1 harg1 arg2 harg2 arg3 harg3 (harg1.unread x0) (harg2.unread x1))
    (st_k0_t1_succ (F := Ideal) Variants.none c none i arg1 harg1 arg2 harg2 arg3 harg3 (harg1.unread x0) (harg2.unread x1) init)
    (fun ic => term x0 x1 0 0 ic oc r q) oc r q
    (fun k acc => trip1_apply c i arg1 harg1 arg2 harg2 arg3 harg3 x0 x1 k acc oc r q) c'

/-! ### Loop 2: tap (0, 1) -/

theorem trips2 : k0_t2_loop.trips = 32 := by decide +kernel

theorem lt32_2 (k : Fin k0_t2_loop.trips) : k.val < 32 := Nat.lt_of_lt_of_le k.isLt (Nat.le_of_eq trips2)

/-- The loop's arithmetic is the tap's, at offsets (0, 1). -/
theorem pay4_apply (acc : FVec Ideal S32x96x96 .f32) (v23 : Vec Ideal S1x1x98x98 .f32) (v27 : Vec Ideal S1x3x3x32 .f32) (oc : Fin 32) (r q : Fin 96) :
    k0_pay4 acc v23 v27 (ix3 oc r q) = max (acc (ix3 oc r q)) (min (v23 (ix4 0 0 (sh r 0) (sh q 1))) (v27 (ix4 0 0 1 oc))) :=
  tap_apply 0 1 slices_S98x98_o0_1_S96x96 slices_S3x3x32_o0_1_0_S1x1x32 acc v23 v27 oc r q

/-- Trip `k` of loop 2, from the staging buffers held at the blocks `x0`, `x1`: at entry (oc, r, q) the carried value grows by
    the term of input channel `k` at tap (0, 1). -/
theorem trip2_apply (c : Dev nD) (i : grid0.Coords) (arg1 : Memref sig .tc .vmem S1x32x98x98 .f32) (harg1 : arg1.IsWhole) (arg2 : Memref sig .tc .vmem S32x3x3x32 .f32) (harg2 : arg2.IsWhole) (arg3 : Memref sig .tc .vmem S1x32x96x96 .f32) (harg3 : arg3.IsWhole)
    (x0 : Vec Ideal S1x32x98x98 .f32) (x1 : Vec Ideal S32x3x3x32 .f32) (k : Fin k0_t2_loop.trips) (acc : FVec Ideal S32x96x96 .f32) (oc : Fin 32) (r q : Fin 96) :
    tripR_k0_t2 (F := Ideal) Variants.none c none i arg1 harg1 arg2 harg2 arg3 harg3 (harg1.unread x0) (harg2.unread x1) k acc (ix3 oc r q)
      = max (acc (ix3 oc r q)) (term x0 x1 0 1 ⟨k.val, lt32_2 k⟩ oc r q) := by
  unfold tripR_k0_t2 trip_k0_t2
  dsimp only
  rw [pay4_apply]
  unfold term
  rw [load_plane arg1 harg1 x0 k.val (lt32_2 k) _ (k0_off3_eq k), load_weights arg2 harg2 x1 k.val (lt32_2 k) _ (k0_off4_eq k)]

/-- Loop 2 whole, from `init`: entry (oc, r, q) of what it yields is below `c'` exactly when `init`'s entry and the 32 terms of tap (0, 1) are. -/
theorem loop2_le (c : Dev nD) (i : grid0.Coords) (arg1 : Memref sig .tc .vmem S1x32x98x98 .f32) (harg1 : arg1.IsWhole) (arg2 : Memref sig .tc .vmem S32x3x3x32 .f32) (harg2 : arg2.IsWhole) (arg3 : Memref sig .tc .vmem S1x32x96x96 .f32) (harg3 : arg3.IsWhole)
    (x0 : Vec Ideal S1x32x98x98 .f32) (x1 : Vec Ideal S32x3x3x32 .f32) (init : FVec Ideal S32x96x96 .f32) (oc : Fin 32) (r q : Fin 96) (c' : EReal) :
    st_k0_t2 (F := Ideal) Variants.none c none i arg1 harg1 arg2 harg2 arg3 harg3 (harg1.unread x0) (harg2.unread x1) init k0_t2_loop.trips (ix3 oc r q) ≤ c'
      ↔ init (ix3 oc r q) ≤ c' ∧ ∀ ic : Fin 32, term x0 x1 0 1 ic oc r q ≤ c' :=
  loop_le trips2 (st_k0_t2 (F := Ideal) Variants.none c none i arg1 harg1 arg2 harg2 arg3 harg3 (harg1.unread x0) (harg2.unread x1) init)
    (tripR_k0_t2 (F := Ideal) Variants.none c none i arg1 harg1 arg2 harg2 arg3 harg3 (harg1.unread x0) (harg2.unread x1))
    (st_k0_t2_succ (F := Ideal) Variants.none c none i arg1 harg1 arg2 harg2 arg3 harg3 (harg1.unread x0) (harg2.unread x1) init)
    (fun ic => term x0 x1 0 1 ic oc r q) oc r q
    (fun k acc => trip2_apply c i arg1 harg1 arg2 harg2 arg3 harg3 x0 x1 k acc oc r q) c'

/-! ### Loop 3: tap (0, 2) -/

theorem trips3 : k0_t3_loop.trips = 32 := by decide +kernel

theorem lt32_3 (k : Fin k0_t3_loop.trips) : k.val < 32 := Nat.lt_of_lt_of_le k.isLt (Nat.le_of_eq trips3)

/-- The loop's arithmetic is the tap's, at offsets (0, 2). -/
theorem pay5_apply (acc : FVec Ideal S32x96x96 .f32) (v23 : Vec Ideal S1x1x98x98 .f32) (v27 : Vec Ideal S1x3x3x32 .f32) (oc : Fin 32) (r q : Fin 96) :
    k0_pay5 acc v23 v27 (ix3 oc r q) = max (acc (ix3 oc r q)) (min (v23 (ix4 0 0 (sh r 0) (sh q 2))) (v27 (ix4 0 0 2 oc))) :=
  tap_apply 0 2 slices_S98x98_o0_2_S96x96 slices_S3x3x32_o0_2_0_S1x1x32 acc v23 v27 oc r q

/-- Trip `k` of loop 3, from the staging buffers held at the blocks `x0`, `x1`: at entry (oc, r, q) the carried value grows by
    the term of input channel `k` at tap (0, 2). -/
theorem trip3_apply (c : Dev nD) (i : grid0.Coords) (arg1 : Memref sig .tc .vmem S1x32x98x98 .f32) (harg1 : arg1.IsWhole) (arg2 : Memref sig .tc .vmem S32x3x3x32 .f32) (harg2 : arg2.IsWhole) (arg3 : Memref sig .tc .vmem S1x32x96x96 .f32) (harg3 : arg3.IsWhole)
    (x0 : Vec Ideal S1x32x98x98 .f32) (x1 : Vec Ideal S32x3x3x32 .f32) (k : Fin k0_t3_loop.trips) (acc : FVec Ideal S32x96x96 .f32) (oc : Fin 32) (r q : Fin 96) :
    tripR_k0_t3 (F := Ideal) Variants.none c none i arg1 harg1 arg2 harg2 arg3 harg3 (harg1.unread x0) (harg2.unread x1) k acc (ix3 oc r q)
      = max (acc (ix3 oc r q)) (term x0 x1 0 2 ⟨k.val, lt32_3 k⟩ oc r q) := by
  unfold tripR_k0_t3 trip_k0_t3
  dsimp only
  rw [pay5_apply]
  unfold term
  rw [load_plane arg1 harg1 x0 k.val (lt32_3 k) _ (k0_off5_eq k), load_weights arg2 harg2 x1 k.val (lt32_3 k) _ (k0_off6_eq k)]

/-- Loop 3 whole, from `init`: entry (oc, r, q) of what it yields is below `c'` exactly when `init`'s entry and the 32 terms of tap (0, 2) are. -/
theorem loop3_le (c : Dev nD) (i : grid0.Coords) (arg1 : Memref sig .tc .vmem S1x32x98x98 .f32) (harg1 : arg1.IsWhole) (arg2 : Memref sig .tc .vmem S32x3x3x32 .f32) (harg2 : arg2.IsWhole) (arg3 : Memref sig .tc .vmem S1x32x96x96 .f32) (harg3 : arg3.IsWhole)
    (x0 : Vec Ideal S1x32x98x98 .f32) (x1 : Vec Ideal S32x3x3x32 .f32) (init : FVec Ideal S32x96x96 .f32) (oc : Fin 32) (r q : Fin 96) (c' : EReal) :
    st_k0_t3 (F := Ideal) Variants.none c none i arg1 harg1 arg2 harg2 arg3 harg3 (harg1.unread x0) (harg2.unread x1) init k0_t3_loop.trips (ix3 oc r q) ≤ c'
      ↔ init (ix3 oc r q) ≤ c' ∧ ∀ ic : Fin 32, term x0 x1 0 2 ic oc r q ≤ c' :=
  loop_le trips3 (st_k0_t3 (F := Ideal) Variants.none c none i arg1 harg1 arg2 harg2 arg3 harg3 (harg1.unread x0) (harg2.unread x1) init)
    (tripR_k0_t3 (F := Ideal) Variants.none c none i arg1 harg1 arg2 harg2 arg3 harg3 (harg1.unread x0) (harg2.unread x1))
    (st_k0_t3_succ (F := Ideal) Variants.none c none i arg1 harg1 arg2 harg2 arg3 harg3 (harg1.unread x0) (harg2.unread x1) init)
    (fun ic => term x0 x1 0 2 ic oc r q) oc r q
    (fun k acc => trip3_apply c i arg1 harg1 arg2 harg2 arg3 harg3 x0 x1 k acc oc r q) c'

/-! ### Loop 4: tap (1, 0) -/

theorem trips4 : k0_t4_loop.trips = 32 := by decide +kernel

theorem lt32_4 (k : Fin k0_t4_loop.trips) : k.val < 32 := Nat.lt_of_lt_of_le k.isLt (Nat.le_of_eq trips4)

/-- The loop's arithmetic is the tap's, at offsets (1, 0). -/
theorem pay6_apply (acc : FVec Ideal S32x96x96 .f32) (v23 : Vec Ideal S1x1x98x98 .f32) (v27 : Vec Ideal S1x3x3x32 .f32) (oc : Fin 32) (r q : Fin 96) :
    k0_pay6 acc v23 v27 (ix3 oc r q) = max (acc (ix3 oc r q)) (min (v23 (ix4 0 0 (sh r 1) (sh q 0))) (v27 (ix4 0 1 0 oc))) :=
  tap_apply 1 0 slices_S98x98_o1_0_S96x96 slices_S3x3x32_o1_0_0_S1x1x32 acc v23 v27 oc r q

/-- Trip `k` of loop 4, from the staging buffers held at the blocks `x0`, `x1`: at entry (oc, r, q) the carried value grows by
    the term of input channel `k` at tap (1, 0). -/
theorem trip4_apply (c : Dev nD) (i : grid0.Coords) (arg1 : Memref sig .tc .vmem S1x32x98x98 .f32) (harg1 : arg1.IsWhole) (arg2 : Memref sig .tc .vmem S32x3x3x32 .f32) (harg2 : arg2.IsWhole) (arg3 : Memref sig .tc .vmem S1x32x96x96 .f32) (harg3 : arg3.IsWhole)
    (x0 : Vec Ideal S1x32x98x98 .f32) (x1 : Vec Ideal S32x3x3x32 .f32) (k : Fin k0_t4_loop.trips) (acc : FVec Ideal S32x96x96 .f32) (oc : Fin 32) (r q : Fin 96) :
    tripR_k0_t4 (F := Ideal) Variants.none c none i arg1 harg1 arg2 harg2 arg3 harg3 (harg1.unread x0) (harg2.unread x1) k acc (ix3 oc r q)
      = max (acc (ix3 oc r q)) (term x0 x1 1 0 ⟨k.val, lt32_4 k⟩ oc r q) := by
  unfold tripR_k0_t4 trip_k0_t4
  dsimp only
  rw [pay6_apply]
  unfold term
  rw [load_plane arg1 harg1 x0 k.val (lt32_4 k) _ (k0_off7_eq k), load_weights arg2 harg2 x1 k.val (lt32_4 k) _ (k0_off8_eq k)]

/-- Loop 4 whole, from `init`: entry (oc, r, q) of what it yields is below `c'` exactly when `init`'s entry and the 32 terms of tap (1, 0) are. -/
theorem loop4_le (c : Dev nD) (i : grid0.Coords) (arg1 : Memref sig .tc .vmem S1x32x98x98 .f32) (harg1 : arg1.IsWhole) (arg2 : Memref sig .tc .vmem S32x3x3x32 .f32) (harg2 : arg2.IsWhole) (arg3 : Memref sig .tc .vmem S1x32x96x96 .f32) (harg3 : arg3.IsWhole)
    (x0 : Vec Ideal S1x32x98x98 .f32) (x1 : Vec Ideal S32x3x3x32 .f32) (init : FVec Ideal S32x96x96 .f32) (oc : Fin 32) (r q : Fin 96) (c' : EReal) :
    st_k0_t4 (F := Ideal) Variants.none c none i arg1 harg1 arg2 harg2 arg3 harg3 (harg1.unread x0) (harg2.unread x1) init k0_t4_loop.trips (ix3 oc r q) ≤ c'
      ↔ init (ix3 oc r q) ≤ c' ∧ ∀ ic : Fin 32, term x0 x1 1 0 ic oc r q ≤ c' :=
  loop_le trips4 (st_k0_t4 (F := Ideal) Variants.none c none i arg1 harg1 arg2 harg2 arg3 harg3 (harg1.unread x0) (harg2.unread x1) init)
    (tripR_k0_t4 (F := Ideal) Variants.none c none i arg1 harg1 arg2 harg2 arg3 harg3 (harg1.unread x0) (harg2.unread x1))
    (st_k0_t4_succ (F := Ideal) Variants.none c none i arg1 harg1 arg2 harg2 arg3 harg3 (harg1.unread x0) (harg2.unread x1) init)
    (fun ic => term x0 x1 1 0 ic oc r q) oc r q
    (fun k acc => trip4_apply c i arg1 harg1 arg2 harg2 arg3 harg3 x0 x1 k acc oc r q) c'

/-! ### Loop 5: tap (1, 1) -/

theorem trips5 : k0_t5_loop.trips = 32 := by decide +kernel

theorem lt32_5 (k : Fin k0_t5_loop.trips) : k.val < 32 := Nat.lt_of_lt_of_le k.isLt (Nat.le_of_eq trips5)

/-- The loop's arithmetic is the tap's, at offsets (1, 1). -/
theorem pay7_apply (acc : FVec Ideal S32x96x96 .f32) (v23 : Vec Ideal S1x1x98x98 .f32) (v27 : Vec Ideal S1x3x3x32 .f32) (oc : Fin 32) (r q : Fin 96) :
    k0_pay7 acc v23 v27 (ix3 oc r q) = max (acc (ix3 oc r q)) (min (v23 (ix4 0 0 (sh r 1) (sh q 1))) (v27 (ix4 0 1 1 oc))) :=
  tap_apply 1 1 slices_S98x98_o1_1_S96x96 slices_S3x3x32_o1_1_0_S1x1x32 acc v23 v27 oc r q

/-- Trip `k` of loop 5, from the staging buffers held at the blocks `x0`, `x1`: at entry (oc, r, q) the carried value grows by
    the term of input channel `k` at tap (1, 1). -/
theorem trip5_apply (c : Dev nD) (i : grid0.Coords) (arg1 : Memref sig .tc .vmem S1x32x98x98 .f32) (harg1 : arg1.IsWhole) (arg2 : Memref sig .tc .vmem S32x3x3x32 .f32) (harg2 : arg2.IsWhole) (arg3 : Memref sig .tc .vmem S1x32x96x96 .f32) (harg3 : arg3.IsWhole)
    (x0 : Vec Ideal S1x32x98x98 .f32) (x1 : Vec Ideal S32x3x3x32 .f32) (k : Fin k0_t5_loop.trips) (acc : FVec Ideal S32x96x96 .f32) (oc : Fin 32) (r q : Fin 96) :
    tripR_k0_t5 (F := Ideal) Variants.none c none i arg1 harg1 arg2 harg2 arg3 harg3 (harg1.unread x0) (harg2.unread x1) k acc (ix3 oc r q)
      = max (acc (ix3 oc r q)) (term x0 x1 1 1 ⟨k.val, lt32_5 k⟩ oc r q) := by
  unfold tripR_k0_t5 trip_k0_t5
  dsimp only
  rw [pay7_apply]
  unfold term
  rw [load_plane arg1 harg1 x0 k.val (lt32_5 k) _ (k0_off9_eq k), load_weights arg2 harg2 x1 k.val (lt32_5 k) _ (k0_off10_eq k)]

/-- Loop 5 whole, from `init`: entry (oc, r, q) of what it yields is below `c'` exactly when `init`'s entry and the 32 terms of tap (1, 1) are. -/
theorem loop5_le (c : Dev nD) (i : grid0.Coords) (arg1 : Memref sig .tc .vmem S1x32x98x98 .f32) (harg1 : arg1.IsWhole) (arg2 : Memref sig .tc .vmem S32x3x3x32 .f32) (harg2 : arg2.IsWhole) (arg3 : Memref sig .tc .vmem S1x32x96x96 .f32) (harg3 : arg3.IsWhole)
    (x0 : Vec Ideal S1x32x98x98 .f32) (x1 : Vec Ideal S32x3x3x32 .f32) (init : FVec Ideal S32x96x96 .f32) (oc : Fin 32) (r q : Fin 96) (c' : EReal) :
    st_k0_t5 (F := Ideal) Variants.none c none i arg1 harg1 arg2 harg2 arg3 harg3 (harg1.unread x0) (harg2.unread x1) init k0_t5_loop.trips (ix3 oc r q) ≤ c'
      ↔ init (ix3 oc r q) ≤ c' ∧ ∀ ic : Fin 32, term x0 x1 1 1 ic oc r q ≤ c' :=
  loop_le trips5 (st_k0_t5 (F := Ideal) Variants.none c none i arg1 harg1 arg2 harg2 arg3 harg3 (harg1.unread x0) (harg2.unread x1) init)
    (tripR_k0_t5 (F := Ideal) Variants.none c none i arg1 harg1 arg2 harg2 arg3 harg3 (harg1.unread x0) (harg2.unread x1))
    (st_k0_t5_succ (F := Ideal) Variants.none c none i arg1 harg1 arg2 harg2 arg3 harg3 (harg1.unread x0) (harg2.unread x1) init)
    (fun ic => term x0 x1 1 1 ic oc r q) oc r q
    (fun k acc => trip5_apply c i arg1 harg1 arg2 harg2 arg3 harg3 x0 x1 k acc oc r q) c'

/-! ### Loop 6: tap (1, 2) -/

theorem trips6 : k0_t6_loop.trips = 32 := by decide +kernel

theorem lt32_6 (k : Fin k0_t6_loop.trips) : k.val < 32 := Nat.lt_of_lt_of_le k.isLt (Nat.le_of_eq trips6)

/-- The loop's arithmetic is the tap's, at offsets (1, 2). -/
theorem pay8_apply (acc : FVec Ideal S32x96x96 .f32) (v23 : Vec Ideal S1x1x98x98 .f32) (v27 : Vec Ideal S1x3x3x32 .f32) (oc : Fin 32) (r q : Fin 96) :
    k0_pay8 acc v23 v27 (ix3 oc r q) = max (acc (ix3 oc r q)) (min (v23 (ix4 0 0 (sh r 1) (sh q 2))) (v27 (ix4 0 1 2 oc))) :=
  tap_apply 1 2 slices_S98x98_o1_2_S96x96 slices_S3x3x32_o1_2_0_S1x1x32 acc v23 v27 oc r q

/-- Trip `k` of loop 6, from the staging buffers held at the blocks `x0`, `x1`: at entry (oc, r, q) the carried value grows by
    the term of input channel `k` at tap (1, 2). -/
theorem trip6_apply (c : Dev nD) (i : grid0.Coords) (arg1 : Memref sig .tc .vmem S1x32x98x98 .f32) (harg1 : arg1.IsWhole) (arg2 : Memref sig .tc .vmem S32x3x3x32 .f32) (harg2 : arg2.IsWhole) (arg3 : Memref sig .tc .vmem S1x32x96x96 .f32) (harg3 : arg3.IsWhole)
    (x0 : Vec Ideal S1x32x98x98 .f32) (x1 : Vec Ideal S32x3x3x32 .f32) (k : Fin k0_t6_loop.trips) (acc : FVec Ideal S32x96x96 .f32) (oc : Fin 32) (r q : Fin 96) :
    tripR_k0_t6 (F := Ideal) Variants.none c none i arg1 harg1 arg2 harg2 arg3 harg3 (harg1.unread x0) (harg2.unread x1) k acc (ix3 oc r q)
      = max (acc (ix3 oc r q)) (term x0 x1 1 2 ⟨k.val, lt32_6 k⟩ oc r q) := by
  unfold tripR_k0_t6 trip_k0_t6
  dsimp only
  rw [pay8_apply]
  unfold term
  rw [load_plane arg1 harg1 x0 k.val (lt32_6 k) _ (k0_off11_eq k), load_weights arg2 harg2 x1 k.val (lt32_6 k) _ (k0_off12_eq k)]

/-- Loop 6 whole, from `init`: entry (oc, r, q) of what it yields is below `c'` exactly when `init`'s entry and the 32 terms of tap (1, 2) are. -/
theorem loop6_le (c : Dev nD) (i : grid0.Coords) (arg1 : Memref sig .tc .vmem S1x32x98x98 .f32) (harg1 : arg1.IsWhole) (arg2 : Memref sig .tc .vmem S32x3x3x32 .f32) (harg2 : arg2.IsWhole) (arg3 : Memref sig .tc .vmem S1x32x96x96 .f32) (harg3 : arg3.IsWhole)
    (x0 : Vec Ideal S1x32x98x98 .f32) (x1 : Vec Ideal S32x3x3x32 .f32) (init : FVec Ideal S32x96x96 .f32) (oc : Fin 32) (r q : Fin 96) (c' : EReal) :
    st_k0_t6 (F := Ideal) Variants.none c none i arg1 harg1 arg2 harg2 arg3 harg3 (harg1.unread x0) (harg2.unread x1) init k0_t6_loop.trips (ix3 oc r q) ≤ c'
      ↔ init (ix3 oc r q) ≤ c' ∧ ∀ ic : Fin 32, term x0 x1 1 2 ic oc r q ≤ c' :=
  loop_le trips6 (st_k0_t6 (F := Ideal) Variants.none c none i arg1 harg1 arg2 harg2 arg3 harg3 (harg1.unread x0) (harg2.unread x1) init)
    (tripR_k0_t6 (F := Ideal) Variants.none c none i arg1 harg1 arg2 harg2 arg3 harg3 (harg1.unread x0) (harg2.unread x1))
    (st_k0_t6_succ (F := Ideal) Variants.none c none i arg1 harg1 arg2 harg2 arg3 harg3 (harg1.unread x0) (harg2.unread x1) init)
    (fun ic => term x0 x1 1 2 ic oc r q) oc r q
    (fun k acc => trip6_apply c i arg1 harg1 arg2 harg2 arg3 harg3 x0 x1 k acc oc r q) c'

/-! ### Loop 7: tap (2, 0) -/

theorem trips7 : k0_t7_loop.trips = 32 := by decide +kernel

theorem lt32_7 (k : Fin k0_t7_loop.trips) : k.val < 32 := Nat.lt_of_lt_of_le k.isLt (Nat.le_of_eq trips7)

/-- The loop's arithmetic is the tap's, at offsets (2, 0). -/
theorem pay9_apply (acc : FVec Ideal S32x96x96 .f32) (v23 : Vec Ideal S1x1x98x98 .f32) (v27 : Vec Ideal S1x3x3x32 .f32) (oc : Fin 32) (r q : Fin 96) :
    k0_pay9 acc v23 v27 (ix3 oc r q) = max (acc (ix3 oc r q)) (min (v23 (ix4 0 0 (sh r 2) (sh q 0))) (v27 (ix4 0 2 0 oc))) :=
  tap_apply 2 0 slices_S98x98_o2_0_S96x96 slices_S3x3x32_o2_0_0_S1x1x32 acc v23 v27 oc r q

/-- Trip `k` of loop 7, from the staging buffers held at the blocks `x0`, `x1`: at entry (oc, r, q) the carried value grows by
    the term of input channel `k` at tap (2, 0). -/
theorem trip7_apply (c : Dev nD) (i : grid0.Coords) (arg1 : Memref sig .tc .vmem S1x32x98x98 .f32) (harg1 : arg1.IsWhole) (arg2 : Memref sig .tc .vmem S32x3x3x32 .f32) (harg2 : arg2.IsWhole) (arg3 : Memref sig .tc .vmem S1x32x96x96 .f32) (harg3 : arg3.IsWhole)
    (x0 : Vec Ideal S1x32x98x98 .f32) (x1 : Vec Ideal S32x3x3x32 .f32) (k : Fin k0_t7_loop.trips) (acc : FVec Ideal S32x96x96 .f32) (oc : Fin 32) (r q : Fin 96) :
    tripR_k0_t7 (F := Ideal) Variants.none c none i arg1 harg1 arg2 harg2 arg3 harg3 (harg1.unread x0) (harg2.unread x1) k acc (ix3 oc r q)
      = max (acc (ix3 oc r q)) (term x0 x1 2 0 ⟨k.val, lt32_7 k⟩ oc r q) := by
  unfold tripR_k0_t7 trip_k0_t7
  dsimp only
  rw [pay9_apply]
  unfold term
  rw [load_plane arg1 harg1 x0 k.val (lt32_7 k) _ (k0_off13_eq k), load_weights arg2 harg2 x1 k.val (lt32_7 k) _ (k0_off14_eq k)]

/-- Loop 7 whole, from `init`: entry (oc, r, q) of what it yields is below `c'` exactly when `init`'s entry and the 32 terms of tap (2, 0) are. -/
theorem loop7_le (c : Dev nD) (i : grid0.Coords) (arg1 : Memref sig .tc .vmem S1x32x98x98 .f32) (harg1 : arg1.IsWhole) (arg2 : Memref sig .tc .vmem S32x3x3x32 .f32) (harg2 : arg2.IsWhole) (arg3 : Memref sig .tc .vmem S1x32x96x96 .f32) (harg3 : arg3.IsWhole)
    (x0 : Vec Ideal S1x32x98x98 .f32) (x1 : Vec Ideal S32x3x3x32 .f32) (init : FVec Ideal S32x96x96 .f32) (oc : Fin 32) (r q : Fin 96) (c' : EReal) :
    st_k0_t7 (F := Ideal) Variants.none c none i arg1 harg1 arg2 harg2 arg3 harg3 (harg1.unread x0) (harg2.unread x1) init k0_t7_loop.trips (ix3 oc r q) ≤ c'
      ↔ init (ix3 oc r q) ≤ c' ∧ ∀ ic : Fin 32, term x0 x1 2 0 ic oc r q ≤ c' :=
  loop_le trips7 (st_k0_t7 (F := Ideal) Variants.none c none i arg1 harg1 arg2 harg2 arg3 harg3 (harg1.unread x0) (harg2.unread x1) init)
    (tripR_k0_t7 (F := Ideal) Variants.none c none i arg1 harg1 arg2 harg2 arg3 harg3 (harg1.unread x0) (harg2.unread x1))
    (st_k0_t7_succ (F := Ideal) Variants.none c none i arg1 harg1 arg2 harg2 arg3 harg3 (harg1.unread x0) (harg2.unread x1) init)
    (fun ic => term x0 x1 2 0 ic oc r q) oc r q
    (fun k acc => trip7_apply c i arg1 harg1 arg2 harg2 arg3 harg3 x0 x1 k acc oc r q) c'

/-! ### Loop 8: tap (2, 1) -/

theorem trips8 : k0_t8_loop.trips = 32 := by decide +kernel

theorem lt32_8 (k : Fin k0_t8_loop.trips) : k.val < 32 := Nat.lt_of_lt_of_le k.isLt (Nat.le_of_eq trips8)

/-- The loop's arithmetic is the tap's, at offsets (2, 1). -/
theorem pay10_apply (acc : FVec Ideal S32x96x96 .f32) (v23 : Vec Ideal S1x1x98x98 .f32) (v27 : Vec Ideal S1x3x3x32 .f32) (oc : Fin 32) (r q : Fin 96) :
    k0_pay10 acc v23 v27 (ix3 oc r q) = max (acc (ix3 oc r q)) (min (v23 (ix4 0 0 (sh r 2) (sh q 1))) (v27 (ix4 0 2 1 oc))) :=
  tap_apply 2 1 slices_S98x98_o2_1_S96x96 slices_S3x3x32_o2_1_0_S1x1x32 acc v23 v27 oc r q

/-- Trip `k` of loop 8, from the staging buffers held at the blocks `x0`, `x1`: at entry (oc, r, q) the carried value grows by
    the term of input channel `k` at tap (2, 1). -/
theorem trip8_apply (c : Dev nD) (i : grid0.Coords) (arg1 : Memref sig .tc .vmem S1x32x98x98 .f32) (harg1 : arg1.IsWhole) (arg2 : Memref sig .tc .vmem S32x3x3x32 .f32) (harg2 : arg2.IsWhole) (arg3 : Memref sig .tc .vmem S1x32x96x96 .f32) (harg3 : arg3.IsWhole)
    (x0 : Vec Ideal S1x32x98x98 .f32) (x1 : Vec Ideal S32x3x3x32 .f32) (k : Fin k0_t8_loop.trips) (acc : FVec Ideal S32x96x96 .f32) (oc : Fin 32) (r q : Fin 96) :
    tripR_k0_t8 (F := Ideal) Variants.none c none i arg1 harg1 arg2 harg2 arg3 harg3 (harg1.unread x0) (harg2.unread x1) k acc (ix3 oc r q)
      = max (acc (ix3 oc r q)) (term x0 x1 2 1 ⟨k.val, lt32_8 k⟩ oc r q) := by
  unfold tripR_k0_t8 trip_k0_t8
  dsimp only
  rw [pay10_apply]
  unfold term
  rw [load_plane arg1 harg1 x0 k.val (lt32_8 k) _ (k0_off15_eq k), load_weights arg2 harg2 x1 k.val (lt32_8 k) _ (k0_off16_eq k)]

/-- Loop 8 whole, from `init`: entry (oc, r, q) of what it yields is below `c'` exactly when `init`'s entry and the 32 terms of tap (2, 1) are. -/
theorem loop8_le (c : Dev nD) (i : grid0.Coords) (arg1 : Memref sig .tc .vmem S1x32x98x98 .f32) (harg1 : arg1.IsWhole) (arg2 : Memref sig .tc .vmem S32x3x3x32 .f32) (harg2 : arg2.IsWhole) (arg3 : Memref sig .tc .vmem S1x32x96x96 .f32) (harg3 : arg3.IsWhole)
    (x0 : Vec Ideal S1x32x98x98 .f32) (x1 : Vec Ideal S32x3x3x32 .f32) (init : FVec Ideal S32x96x96 .f32) (oc : Fin 32) (r q : Fin 96) (c' : EReal) :
    st_k0_t8 (F := Ideal) Variants.none c none i arg1 harg1 arg2 harg2 arg3 harg3 (harg1.unread x0) (harg2.unread x1) init k0_t8_loop.trips (ix3 oc r q) ≤ c'
      ↔ init (ix3 oc r q) ≤ c' ∧ ∀ ic : Fin 32, term x0 x1 2 1 ic oc r q ≤ c' :=
  loop_le trips8 (st_k0_t8 (F := Ideal) Variants.none c none i arg1 harg1 arg2 harg2 arg3 harg3 (harg1.unread x0) (harg2.unread x1) init)
    (tripR_k0_t8 (F := Ideal) Variants.none c none i arg1 harg1 arg2 harg2 arg3 harg3 (harg1.unread x0) (harg2.unread x1))
    (st_k0_t8_succ (F := Ideal) Variants.none c none i arg1 harg1 arg2 harg2 arg3 harg3 (harg1.unread x0) (harg2.unread x1) init)
    (fun ic => term x0 x1 2 1 ic oc r q) oc r q
    (fun k acc => trip8_apply c i arg1 harg1 arg2 harg2 arg3 harg3 x0 x1 k acc oc r q) c'

/-! ### Loop 9: tap (2, 2) -/

theorem trips9 : k0_t9_loop.trips = 32 := by decide +kernel

theorem lt32_9 (k : Fin k0_t9_loop.trips) : k.val < 32 := Nat.lt_of_lt_of_le k.isLt (Nat.le_of_eq trips9)

/-- The loop's arithmetic is the tap's, at offsets (2, 2). -/
theorem pay11_apply (acc : FVec Ideal S32x96x96 .f32) (v23 : Vec Ideal S1x1x98x98 .f32) (v27 : Vec Ideal S1x3x3x32 .f32) (oc : Fin 32) (r q : Fin 96) :
    k0_pay11 acc v23 v27 (ix3 oc r q) = max (acc (ix3 oc r q)) (min (v23 (ix4 0 0 (sh r 2) (sh q 2))) (v27 (ix4 0 2 2 oc))) :=
  tap_apply 2 2 slices_S98x98_o2_2_S96x96 slices_S3x3x32_o2_2_0_S1x1x32 acc v23 v27 oc r q

/-- Trip `k` of loop 9, from the staging buffers held at the blocks `x0`, `x1`: at entry (oc, r, q) the carried value grows by
    the term of input channel `k` at tap (2, 2). -/
theorem trip9_apply (c : Dev nD) (i : grid0.Coords) (arg1 : Memref sig .tc .vmem S1x32x98x98 .f32) (harg1 : arg1.IsWhole) (arg2 : Memref sig .tc .vmem S32x3x3x32 .f32) (harg2 : arg2.IsWhole) (arg3 : Memref sig .tc .vmem S1x32x96x96 .f32) (harg3 : arg3.IsWhole)
    (x0 : Vec Ideal S1x32x98x98 .f32) (x1 : Vec Ideal S32x3x3x32 .f32) (k : Fin k0_t9_loop.trips) (acc : FVec Ideal S32x96x96 .f32) (oc : Fin 32) (r q : Fin 96) :
    tripR_k0_t9 (F := Ideal) Variants.none c none i arg1 harg1 arg2 harg2 arg3 harg3 (harg1.unread x0) (harg2.unread x1) k acc (ix3 oc r q)
      = max (acc (ix3 oc r q)) (term x0 x1 2 2 ⟨k.val, lt32_9 k⟩ oc r q) := by
  unfold tripR_k0_t9 trip_k0_t9
  dsimp only
  rw [pay11_apply]
  unfold term
  rw [load_plane arg1 harg1 x0 k.val (lt32_9 k) _ (k0_off17_eq k), load_weights arg2 harg2 x1 k.val (lt32_9 k) _ (k0_off18_eq k)]

/-- Loop 9 whole, from `init`: entry (oc, r, q) of what it yields is below `c'` exactly when `init`'s entry and the 32 terms of tap (2, 2) are. -/
theorem loop9_le (c : Dev nD) (i : grid0.Coords) (arg1 : Memref sig .tc .vmem S1x32x98x98 .f32) (harg1 : arg1.IsWhole) (arg2 : Memref sig .tc .vmem S32x3x3x32 .f32) (harg2 : arg2.IsWhole) (arg3 : Memref sig .tc .vmem S1x32x96x96 .f32) (harg3 : arg3.IsWhole)
    (x0 : Vec Ideal S1x32x98x98 .f32) (x1 : Vec Ideal S32x3x3x32 .f32) (init : FVec Ideal S32x96x96 .f32) (oc : Fin 32) (r q : Fin 96) (c' : EReal) :
    st_k0_t9 (F := Ideal) Variants.none c none i arg1 harg1 arg2 harg2 arg3 harg3 (harg1.unread x0) (harg2.unread x1) init k0_t9_loop.trips (ix3 oc r q) ≤ c'
      ↔ init (ix3 oc r q) ≤ c' ∧ ∀ ic : Fin 32, term x0 x1 2 2 ic oc r q ≤ c' :=
  loop_le trips9 (st_k0_t9 (F := Ideal) Variants.none c none i arg1 harg1 arg2 harg2 arg3 harg3 (harg1.unread x0) (harg2.unread x1) init)
    (tripR_k0_t9 (F := Ideal) Variants.none c none i arg1 harg1 arg2 harg2 arg3 harg3 (harg1.unread x0) (harg2.unread x1))
    (st_k0_t9_succ (F := Ideal) Variants.none c none i arg1 harg1 arg2 harg2 arg3 harg3 (harg1.unread x0) (harg2.unread x1) init)
    (fun ic => term x0 x1 2 2 ic oc r q) oc r q
    (fun k acc => trip9_apply c i arg1 harg1 arg2 harg2 arg3 harg3 x0 x1 k acc oc r q) c'

end Cert.KernelIdeal.Tap

end
-- ==== Proof.KernelBlock.lean ====
/-
  What the body leaves in the output block, read at an entry through its upper bounds.

  The body starts its running maximum at −∞ everywhere, runs the nine tap loops one after the other (each 32 trips, one
  per input channel), and stores the result, recast from [32, 96, 96] to the block's [1, 32, 96, 96], over the whole
  output staging buffer. By the loops' lemma the carried entry (oc, r, q) after the nine loops is bounded by `c'` exactly
  when −∞ is (always) and each of the 9 · 32 terms is; the one store covers the block, so the block holds that value.
-/
import proofs.«136413_j72988674228358_2_alg».proof.Proof.GenFix.KernelIdeal.Frame
import proofs.«136413_j72988674228358_2_alg».proof.Proof.KernelTap

set_option maxRecDepth 16384

noncomputable section

namespace Cert.KernelIdeal.Tap

open Cert.KernelIdeal Cert.KernelIdeal.Gen Cert.MaxMin Idealize.ShloMosaic Idealize.ShloMosaic.ValueIdx Idealize.ShloMosaic.TcCoe

/-- The running maximum starts below every bound. -/
theorem start_le (idx : S32x96x96.Idx) (c' : EReal) : k0_pay2 (F := Ideal) idx ≤ c' := by
  show Ideal.ofBits .f32 0xFF800000#32 ≤ c'
  rw [ninf_eq_bot]; exact bot_le

/-- THE NINE LOOPS: entry (oc, r, q) of the value they end with is below `c'` exactly when every term — 3 × 3 taps, 32 input
    channels — is. -/
theorem loops_le (c : Dev nD) (i : grid0.Coords) (arg1 : Memref sig .tc .vmem S1x32x98x98 .f32) (harg1 : arg1.IsWhole) (arg2 : Memref sig .tc .vmem S32x3x3x32 .f32) (harg2 : arg2.IsWhole) (arg3 : Memref sig .tc .vmem S1x32x96x96 .f32) (harg3 : arg3.IsWhole)
    (x0 : Vec Ideal S1x32x98x98 .f32) (x1 : Vec Ideal S32x3x3x32 .f32) (oc : Fin 32) (r q : Fin 96) (c' : EReal) :
    kernelRun0_A.sl.r (F := Ideal) c i arg1 harg1 arg2 harg2 arg3 harg3 x0 x1 (ix3 oc r q) ≤ c'
      ↔ ∀ (kh kw : Fin 3) (ic : Fin 32), term x0 x1 kh kw ic oc r q ≤ c' := by
  unfold kernelRun0_A.sl.r
  rw [loop9_le, loop8_le, loop7_le, loop6_le, loop5_le, loop4_le, loop3_le, loop2_le, loop1_le]
  constructor
  · rintro ⟨⟨⟨⟨⟨⟨⟨⟨⟨-, h1⟩, h2⟩, h3⟩, h4⟩, h5⟩, h6⟩, h7⟩, h8⟩, h9⟩ kh kw ic
    match kh, kw with
    | ⟨0, _⟩, ⟨0, _⟩ => exact h1 ic
    | ⟨0, _⟩, ⟨1, _⟩ => exact h2 ic
    | ⟨0, _⟩, ⟨2, _⟩ => exact h3 ic
    | ⟨1, _⟩, ⟨0, _⟩ => exact h4 ic
    | ⟨1, _⟩, ⟨1, _⟩ => exact h5 ic
    | ⟨1, _⟩, ⟨2, _⟩ => exact h6 ic
    | ⟨2, _⟩, ⟨0, _⟩ => exact h7 ic
    | ⟨2, _⟩, ⟨1, _⟩ => exact h8 ic
    | ⟨2, _⟩, ⟨2, _⟩ => exact h9 ic
  · intro h
    exact ⟨⟨⟨⟨⟨⟨⟨⟨⟨start_le _ c', h 0 0⟩, h 0 1⟩, h 0 2⟩, h 1 0⟩, h 1 1⟩, h 1 2⟩, h 2 0⟩, h 2 1⟩, h 2 2⟩

theorem hz4 : (![0, 0, 0, 0] : Fin 4 → Nat) = fun _ => 0 := funext fun a => by fin_cases a <;> rfl

/-- THE BLOCK: what the body leaves in the output staging buffer, at entry (0, oc, r, q). -/
theorem out_le (c : Dev nD) (i : grid0.Coords) (arg1 : Memref sig .tc .vmem S1x32x98x98 .f32) (harg1 : arg1.IsWhole) (arg2 : Memref sig .tc .vmem S32x3x3x32 .f32) (harg2 : arg2.IsWhole) (arg3 : Memref sig .tc .vmem S1x32x96x96 .f32) (harg3 : arg3.IsWhole)
    (x0 : Vec Ideal S1x32x98x98 .f32) (x1 : Vec Ideal S32x3x3x32 .f32) (oc : Fin 32) (r q : Fin 96) (c' : EReal) :
    out0_A_2 (F := Ideal) c i arg1 harg1 arg2 harg2 arg3 harg3 x0 x1 (ix4 0 oc r q) ≤ c'
      ↔ ∀ (kh kw : Fin 3) (ic : Fin 32), term x0 x1 kh kw ic oc r q ≤ c' := by
  unfold out0_A_2
  rw [View.read_writes_eq_canon _ _ _ (cover0_A_2 c i arg1 harg1 arg2 harg2 arg3 harg3 x0 x1)]
  unfold kernelRun0_A
  dsimp only
  rw [View.canon_unit_zero hz4]
  unfold k0_pay1
  rw [shapeCast_addUnit_apply]
  have e : (fun a : Fin 3 => ix4 (0 : Fin 1) oc r q a.succ) = ix3 oc r q :=
    funext fun a => match a with
      | ⟨0, _⟩ => rfl
      | ⟨1, _⟩ => rfl
      | ⟨2, _⟩ => rfl
  rw [e]
  exact loops_le c i arg1 harg1 arg2 harg2 arg3 harg3 x0 x1 oc r q c'

end Cert.KernelIdeal.Tap

end
-- ==== Proof.KernelArray.lean ====
/-
  From blocks to the array: after the run, the kernel's result array is the max–min convolution of the padded input and
  the weights, as one function of the two.

  The grid has one point per batch entry `n`. Point `n` is handed block `n` of the padded input (all of [32, 98, 98] at
  batch index `n`), the whole of the transposed weights, and writes back block `n` of the result. The body's block at
  entry (0, oc, r, q) has the upper bounds of the 288 terms `min (block (0, ic, r + kh, q + kw)) (weights (ic, kh, kw, oc))`;
  the input block read at (0, ic, a, b) is the padded array at (n, ic, a, b), and the transposed weights at
  (ic, kh, kw, oc) are the weights at (oc, ic, kh, kw) — so the block written back is block `n` of the convolution of the
  arrays as the region finds them. The eight blocks tile the result array (entry (n, ·, ·, ·) lies in block `n`).
-/
import proofs.«136413_j72988674228358_2_alg».proof.Proof.GenFix.KernelIdeal.Value
import proofs.«136413_j72988674228358_2_alg».proof.Proof.KernelBlock
import Idealize.ShloMosaic.Lib.StableHlo.Run

set_option maxRecDepth 16384

noncomputable section

namespace Cert.KernelIdeal.Whole

open Cert.KernelIdeal Cert.KernelIdeal.Gen Cert.KernelIdeal.Value Cert.KernelIdeal.Tap Cert.MaxMin
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-! ## The arrays as the region finds them -/

/-- The second operand of the region is the weights with the output-channel axis moved last: [oc, ic, kh, kw] ↦ [ic, kh, kw, oc]. -/
theorem V_weights (c : Dev nD) :
    (V m c main_v1 : S32x3x3x32.Idx → EReal)
      = transpose S32x3x3x32 [1, 2, 3, 0] (m ((c : Thread nD τ).loc main_arg1)) transposes_S32x32x3x3_S32x3x3x32_1_2_3_0 := by
  dsimp only [Gen.V]
  simp only [Gen.hostOps0, Gen.hostOps0_1, Gen.hostOps0_2, List.flatten_cons, List.flatten_nil, List.append_nil, List.cons_append,
    List.nil_append]
  after_results

/-- The first operand of the region is the input padded by one row and one column of −∞ on every side of each plane. -/
theorem V_padded (c : Dev nD) :
    (V m c main_v0 : S8x32x98x98.Idx → EReal)
      = pad S8x32x98x98 ![0, 0, 1, 1] ![0, 0, 1, 1] ![0, 0, 0, 0] (m ((c : Thread nD τ).loc main_arg0))
          (id (constant (F := Ideal) S_ .f32 0xFF800000#32)) pads_S8x32x96x96_S8x32x98x98_000_000_110_110 h_S_ := by
  dsimp only [Gen.V]
  simp only [Gen.hostOps0, Gen.hostOps0_1, Gen.hostOps0_2, List.flatten_cons, List.flatten_nil, List.append_nil, List.cons_append,
    List.nil_append]
  after_results
  rfl

/-- … read at an entry. -/
theorem V_weights_apply (c : Dev nD) (ic : Fin 32) (kh kw : Fin 3) (oc : Fin 32) :
    (V m c main_v1 : S32x3x3x32.Idx → EReal) (ix4 ic kh kw oc) = m ((c : Thread nD τ).loc main_arg1) (ix4 oc ic kh kw) := by
  rw [V_weights]
  refine transpose_apply _ _ _ (ix4 ic kh kw oc) (ix4 oc ic kh kw) ?_
  intro b
  match b with
  | ⟨0, _⟩ => rfl
  | ⟨1, _⟩ => rfl
  | ⟨2, _⟩ => rfl
  | ⟨3, _⟩ => rfl

/-! ## Where the windows' blocks sit -/

/-- The index maps, decided over the eight points: the input's and the result's block index is the point's number on the
    batch axis and zero elsewhere; the weights' block is the whole array. -/
theorem index_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = 0 ∧ win0_1.index t (1 : Fin 4) = 0 ∧ win0_1.index t (2 : Fin 4) = 0 ∧ win0_1.index t (3 : Fin 4) = 0
    ∧ win0_2.index t (0 : Fin 4) = t.val ∧ win0_2.index t (1 : Fin 4) = 0 ∧ win0_2.index t (2 : Fin 4) = 0 ∧ win0_2.index t (3 : Fin 4) = 0 :=
  (by decide +kernel : ∀ t : Fin grid0.N, _)

theorem lt8 (t : Fin cfg0.N) : t.val < 8 := Nat.lt_of_lt_of_le t.isLt (Nat.le_of_eq N_0)

/-- The input block of point `t` at (0, ic, a, b) is the padded array at (t, ic, a, b). -/
theorem iblk0_apply (c : Dev nD) (t : Fin cfg0.N) (ic : Fin 32) (a b : Fin 98) :
    iblk m c 0 t (ix4 0 ic a b) = (V m c main_v0 : S8x32x98x98.Idx → EReal) (ix4 ⟨t.val, lt8 t⟩ ic a b) := by
  obtain ⟨e0, e1, e2, e3, -⟩ := index_facts t
  show (V m c main_v0 : S8x32x98x98.Idx → EReal) (((cfg0.win 0).blk t).view.emb (ix4 0 ic a b)) = _
  refine congrArg _ (funext fun d => Fin.ext ?_)
  match d with
  | ⟨0, _⟩ => show win0_0.index t (0 : Fin 4) * 1 + 1 * 0 = t.val; omega
  | ⟨1, _⟩ => show win0_0.index t (1 : Fin 4) * 32 + 1 * ic.val = ic.val; omega
  | ⟨2, _⟩ => show win0_0.index t (2 : Fin 4) * 98 + 1 * a.val = a.val; omega
  | ⟨3, _⟩ => show win0_0.index t (3 : Fin 4) * 98 + 1 * b.val = b.val; omega

/-- The weights block of any point at (ic, kh, kw, oc) is the weights at (oc, ic, kh, kw). -/
theorem iblk1_apply (c : Dev nD) (t : Fin cfg0.N) (ic : Fin 32) (kh kw : Fin 3) (oc : Fin 32) :
    iblk m c 1 t (ix4 ic kh kw oc) = m ((c : Thread nD τ).loc main_arg1) (ix4 oc ic kh kw) := by
  obtain ⟨-, -, -, -, e0, e1, e2, e3, -⟩ := index_facts t
  rw [← V_weights_apply m c ic kh kw oc]
  show (V m c main_v1 : S32x3x3x32.Idx → EReal) (((cfg0.win 1).blk t).view.emb (ix4 ic kh kw oc)) = _
  refine congrArg _ (funext fun d => Fin.ext ?_)
  match d with
  | ⟨0, _⟩ => show win0_1.index t (0 : Fin 4) * 32 + 1 * ic.val = ic.val; omega
  | ⟨1, _⟩ => show win0_1.index t (1 : Fin 4) * 3 + 1 * kh.val = kh.val; omega
  | ⟨2, _⟩ => show win0_1.index t (2 : Fin 4) * 3 + 1 * kw.val = kw.val; omega
  | ⟨3, _⟩ => show win0_1.index t (3 : Fin 4) * 32 + 1 * oc.val = oc.val; omega

/-- Entry (0, oc, r, q) of the result's block at point `t` is entry (t, oc, r, q) of the array. -/
theorem oblk_emb (t : Fin cfg0.N) (oc : Fin 32) (r q : Fin 96) :
    ((cfg0.win 2).blk t).view.emb (ix4 0 oc r q) = (ix4 ⟨t.val, lt8 t⟩ oc r q : S8x32x96x96.Idx) := by
  obtain ⟨-, -, -, -, -, -, -, -, e0, e1, e2, e3⟩ := index_facts t
  refine funext fun d => Fin.ext ?_
  match d with
  | ⟨0, _⟩ => show win0_2.index t (0 : Fin 4) * 1 + 1 * 0 = t.val; omega
  | ⟨1, _⟩ => show win0_2.index t (1 : Fin 4) * 32 + 1 * oc.val = oc.val; omega
  | ⟨2, _⟩ => show win0_2.index t (2 : Fin 4) * 96 + 1 * r.val = r.val; omega
  | ⟨3, _⟩ => show win0_2.index t (3 : Fin 4) * 96 + 1 * q.val = q.val; omega

/-! ## What a point writes back -/

/-- The result array as ONE function of the arrays the region finds: the convolution of the padded input and the weights. -/
abbrev result (c : Dev nD) : S8x32x96x96.Idx → EReal :=
  conv (V m c main_v0 : S8x32x98x98.Idx → EReal) (m ((c : Thread nD τ).loc main_arg1))

/-- WHAT POINT `t` WRITES BACK is block `t` of the convolution. -/
theorem flushed_eq (c : Dev nD) (t : Fin cfg0.N) :
    (dats m 0 c).flushed 2 t = ((cfg0.win 2).blk t).view.read (Elt Ideal) (result m c) := by
  rw [Value.flushed2_A]
  funext y
  obtain ⟨oc, r, q, rfl⟩ : ∃ (oc : Fin 32) (r q : Fin 96), y = ix4 0 oc r q :=
    ⟨y 1, y 2, y 3, by rw [eq_ix4 y]; congr 1; exact Fin.ext (Nat.lt_one_iff.mp (y 0).isLt)⟩
  show out0_A_2 (F := Ideal) c (grid0.coords t) (ms0_0 t) (hs0_0 t) (ms0_1 t) (hs0_1 t) (ms0_2 t) (hs0_2 t) (iblk m c 0 t) (iblk m c 1 t) (ix4 0 oc r q)
    = result m c (((cfg0.win 2).blk t).view.emb (ix4 0 oc r q))
  rw [oblk_emb]
  refine eq_of_same_upper fun c' => ?_
  rw [out_le, conv_le]
  refine forall_congr' fun kh => forall_congr' fun kw => forall_congr' fun ic => ?_
  unfold term
  rw [iblk0_apply, iblk1_apply]

/-! ## The blocks tile the array -/

/-- An index of the array is in point `t`'s block iff each coordinate is in the block's range on its axis. -/
theorem mem_blk (t : Fin cfg0.N) (i : S8x32x96x96.Idx) :
    i ∈ ((cfg0.win 2).blk t).view.set ↔ ∀ a : Fin 4, win0_2.index t a * S1x32x96x96.size a ≤ (i a).val ∧ (i a).val < win0_2.index t a * S1x32x96x96.size a + S1x32x96x96.size a := by
  show i ∈ ((View.whole main_v2).slice (win0_2.rect t)).set ↔ _
  rw [View.set_slice_whole, Rect.mem_set_unit]
  exact Iff.rfl

/-- Every entry is in the block of the point numbered by its batch index. -/
theorem cover (i : S8x32x96x96.Idx) : ∃ t : Fin cfg0.N, (cfg0.win 2).flush t = true ∧ i ∈ ((cfg0.win 2).blk t).view.set := by
  have h0 : (i 0).val < 8 := (i 0).isLt
  have h1 : (i 1).val < 32 := (i 1).isLt
  have h2 : (i 2).val < 96 := (i 2).isLt
  have h3 : (i 3).val < 96 := (i 3).isLt
  let t : Fin cfg0.N := ⟨(i 0).val, by rw [show cfg0.N = 8 from N_0]; exact h0⟩
  obtain ⟨-, -, -, -, -, -, -, -, e0, e1, e2, e3⟩ := index_facts t
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; have : t.val = (i 0).val := rfl; omega
  | ⟨1, _⟩ => show win0_2.index t (1 : Fin 4) * 32 ≤ (i 1).val ∧ (i 1).val < win0_2.index t (1 : Fin 4) * 32 + 32; omega
  | ⟨2, _⟩ => show win0_2.index t (2 : Fin 4) * 96 ≤ (i 2).val ∧ (i 2).val < win0_2.index t (2 : Fin 4) * 96 + 96; omega
  | ⟨3, _⟩ => show win0_2.index t (3 : Fin 4) * 96 ≤ (i 3).val ∧ (i 3).val < win0_2.index t (3 : Fin 4) * 96 + 96; omega

/-- THE ARRAY after the run is the convolution. -/
theorem final (c : Dev nD) : (dats m 0 c).arrAt 2 cfg0.N = result m c :=
  (dats m 0 c).arrAt_eq_of_cover 2 (result m c) (fun t _ => flushed_eq m c t) cover

/-- The kernel's run, re-posted: the result array is the convolution of the padded input (as the region finds it) and the
    weights; the arguments are unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.RefValue.lean ====
/-
  The reference, read at an entry through its upper bounds: it is the max–min convolution of ITS padded input and the weights.

  The reference takes the nine taps one at a time. For tap (kh, kw) it slices the padded input at offset (kh, kw), slices the
  weights at (kh, kw) to an [oc, ic] matrix, spreads both over [n, oc, ic, r, q], takes the minimum entry by entry and
  reduces by `max` over the input-channel axis from −∞; the nine results are joined by `max` one after the other. An
  upper bound of a `max` bounds both arguments, and an upper bound of the reduction bounds −∞ and each of the 32 minima:
  so entry (n, oc, r, q) of the result is bounded by `c'` exactly when each of the 288 terms
  `min (padded (n, ic, r + kh, q + kw)) (weights (oc, ic, kh, kw))` is — the upper bounds of the convolution.
-/
import proofs.«136413_j72988674228358_2_alg».proof.Proof.Gen.ReferenceIdeal.Read
import proofs.«136413_j72988674228358_2_alg».proof.Proof.MaxMinSpec
import Idealize.ShloMosaic.Lib.Pipeline.Value
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.Read Cert.MaxMin
open Idealize.ShloMosaic Idealize.ShloMosaic.ValueIdx Idealize.ShloMosaic.TcCoe

/-- Dropping axis 2 (the input channels) of [8, 32, 32, 96, 96] leaves [8, 32, 96, 96]. -/
theorem hred : S8x32x32x96x96.Reduces [2] S8x32x96x96 := by decide

/-- Result entry (n, oc, r, q) with input channel `ic` put back on axis 2. -/
theorem lift_eq (n : Fin 8) (oc ic : Fin 32) (r q : Fin 96) :
    hred.lift (ix4 n oc r q) ic = (ix5 n oc ic r q : S8x32x32x96x96.Idx) :=
  funext fun a => Fin.ext (match a with
    | ⟨0, _⟩ => rfl
    | ⟨1, _⟩ => rfl
    | ⟨2, _⟩ => rfl
    | ⟨3, _⟩ => rfl
    | ⟨4, _⟩ => rfl)

/-! ### Tap (0, 0) -/

/-- Entry (n, oc, ic, r, q) of the tap's [8, 32, 32, 96, 96] array of minima: the slice of the padded input at offset (0, 0),
    spread over the output channels, against the weights' [oc, ic] slice at (0, 0), spread over batch and plane. -/
theorem tap0_term (x0 : S8x32x96x96.Idx → EReal) (x1 : S32x32x3x3.Idx → EReal) (n : Fin 8) (oc ic : Fin 32) (r q : Fin 96) :
    val_main_v8 (F := Ideal) x0 x1 (ix5 n oc ic r q)
      = min (val_main_v0 (F := Ideal) x0 (ix4 n ic (sh r 0) (sh q 0))) (x1 (ix4 oc ic 0 0)) := by
  have hoc := oc.isLt; have hic := ic.isLt
  rw [val_main_v8_apply, val_main_v6_apply, val_main_v4_apply, val_main_v1_apply, val_main_v7_apply, val_main_v5_apply, val_main_v3_apply, val_main_v2_apply]
  have e1 : idx_main_v1 (idx_main_v4 (idx_main_v6 (ix5 n oc ic r q))) = ix4 n ic (sh r 0) (sh q 0) :=
    funext fun a => Fin.ext (match a with
      | ⟨0, _⟩ => rfl
      | ⟨1, _⟩ => rfl
      | ⟨2, _⟩ => by show r.val = r.val + 0; omega
      | ⟨3, _⟩ => by show q.val = q.val + 0; omega)
  have e2 : idx_main_v2 (idx_main_v3 (idx_main_v5 (idx_main_v7 (ix5 n oc ic r q)))) = ix4 oc ic 0 0 :=
    funext fun a => Fin.ext (match a with
      | ⟨0, _⟩ => by show (oc.val * 32 + ic.val) / 32 = oc.val; omega
      | ⟨1, _⟩ => by show (oc.val * 32 + ic.val) / 1 % 32 = ic.val; omega
      | ⟨2, _⟩ => by show 0 = 0; omega
      | ⟨3, _⟩ => by show 0 = 0; omega)
  rw [e1, e2]
  rfl

/-- The tap's maximum over the input channels (a host reduction over axis 2 from −∞), through its upper bounds. -/
theorem red0_le (x0 : S8x32x96x96.Idx → EReal) (x1 : S32x32x3x3.Idx → EReal) (n : Fin 8) (oc : Fin 32) (r q : Fin 96) (c' : EReal) :
    val_main_v9 (F := Ideal) x0 x1 (ix4 n oc r q) ≤ c'
      ↔ ∀ ic : Fin 32, min (val_main_v0 (F := Ideal) x0 (ix4 n ic (sh r 0) (sh q 0))) (x1 (ix4 oc ic 0 0)) ≤ c' := by
  unfold val_main_v9
  rw [Host.reduce_eq_fold_single (FloatOps.maximumf (F := Ideal) (φ := .f32)) _ _ reducesTo_S8x32x32x96x96_S8x32x96x96_d2 hred h_S_ (ix4 n oc r q)]
  refine ((fold_max_univ_le _ _ c').trans (and_iff_right ?_)).trans (forall_congr' fun ic => ?_)
  · show Ideal.ofBits .f32 0xFF800000#32 ≤ c'
    rw [ninf_eq_bot]; exact bot_le
  · show val_main_v8 (F := Ideal) x0 x1 (hred.lift (ix4 n oc r q) ic) ≤ c' ↔ _
    rw [lift_eq n oc ic r q]
    exact Eq.to_iff (congrArg (fun z => z ≤ c') (tap0_term x0 x1 n oc ic r q))

/-! ### Tap (0, 1) -/

/-- Entry (n, oc, ic, r, q) of the tap's [8, 32, 32, 96, 96] array of minima: the slice of the padded input at offset (0, 1),
    spread over the output channels, against the weights' [oc, ic] slice at (0, 1), spread over batch and plane. -/
theorem tap1_term (x0 : S8x32x96x96.Idx → EReal) (x1 : S32x32x3x3.Idx → EReal) (n : Fin 8) (oc ic : Fin 32) (r q : Fin 96) :
    val_main_v17 (F := Ideal) x0 x1 (ix5 n oc ic r q)
      = min (val_main_v0 (F := Ideal) x0 (ix4 n ic (sh r 0) (sh q 1))) (x1 (ix4 oc ic 0 1)) := by
  have hoc := oc.isLt; have hic := ic.isLt
  rw [val_main_v17_apply, val_main_v15_apply, val_main_v13_apply, val_main_v10_apply, val_main_v16_apply, val_main_v14_apply, val_main_v12_apply, val_main_v11_apply]
  have e1 : idx_main_v10 (idx_main_v13 (idx_main_v15 (ix5 n oc ic r q))) = ix4 n ic (sh r 0) (sh q 1) :=
    funext fun a => Fin.ext (match a with
      | ⟨0, _⟩ => rfl
      | ⟨1, _⟩ => rfl
      | ⟨2, _⟩ => by show r.val = r.val + 0; omega
      | ⟨3, _⟩ => by show 1 + q.val = q.val + 1; omega)
  have e2 : idx_main_v11 (idx_main_v12 (idx_main_v14 (idx_main_v16 (ix5 n oc ic r q)))) = ix4 oc ic 0 1 :=
    funext fun a => Fin.ext (match a with
      | ⟨0, _⟩ => by show (oc.val * 32 + ic.val) / 32 = oc.val; omega
      | ⟨1, _⟩ => by show (oc.val * 32 + ic.val) / 1 % 32 = ic.val; omega
      | ⟨2, _⟩ => by show 0 = 0; omega
      | ⟨3, _⟩ => by show 1 + 0 = 1; omega)
  rw [e1, e2]
  rfl

/-- The tap's maximum over the input channels (a host reduction over axis 2 from −∞), through its upper bounds. -/
theorem red1_le (x0 : S8x32x96x96.Idx → EReal) (x1 : S32x32x3x3.Idx → EReal) (n : Fin 8) (oc : Fin 32) (r q : Fin 96) (c' : EReal) :
    val_main_v18 (F := Ideal) x0 x1 (ix4 n oc r q) ≤ c'
      ↔ ∀ ic : Fin 32, min (val_main_v0 (F := Ideal) x0 (ix4 n ic (sh r 0) (sh q 1))) (x1 (ix4 oc ic 0 1)) ≤ c' := by
  unfold val_main_v18
  rw [Host.reduce_eq_fold_single (FloatOps.maximumf (F := Ideal) (φ := .f32)) _ _ reducesTo_S8x32x32x96x96_S8x32x96x96_d2 hred h_S_ (ix4 n oc r q)]
  refine ((fold_max_univ_le _ _ c').trans (and_iff_right ?_)).trans (forall_congr' fun ic => ?_)
  · show Ideal.ofBits .f32 0xFF800000#32 ≤ c'
    rw [ninf_eq_bot]; exact bot_le
  · show val_main_v17 (F := Ideal) x0 x1 (hred.lift (ix4 n oc r q) ic) ≤ c' ↔ _
    rw [lift_eq n oc ic r q]
    exact Eq.to_iff (congrArg (fun z => z ≤ c') (tap1_term x0 x1 n oc ic r q))

/-! ### Tap (0, 2) -/

/-- Entry (n, oc, ic, r, q) of the tap's [8, 32, 32, 96, 96] array of minima: the slice of the padded input at offset (0, 2),
    spread over the output channels, against the weights' [oc, ic] slice at (0, 2), spread over batch and plane. -/
theorem tap2_term (x0 : S8x32x96x96.Idx → EReal) (x1 : S32x32x3x3.Idx → EReal) (n : Fin 8) (oc ic : Fin 32) (r q : Fin 96) :
    val_main_v27 (F := Ideal) x0 x1 (ix5 n oc ic r q)
      = min (val_main_v0 (F := Ideal) x0 (ix4 n ic (sh r 0) (sh q 2))) (x1 (ix4 oc ic 0 2)) := by
  have hoc := oc.isLt; have hic := ic.isLt
  rw [val_main_v27_apply, val_main_v25_apply, val_main_v23_apply, val_main_v20_apply, val_main_v26_apply, val_main_v24_apply, val_main_v22_apply, val_main_v21_apply]
  have e1 : idx_main_v20 (idx_main_v23 (idx_main_v25 (ix5 n oc ic r q))) = ix4 n ic (sh r 0) (sh q 2) :=
    funext fun a => Fin.ext (match a with
      | ⟨0, _⟩ => rfl
      | ⟨1, _⟩ => rfl
      | ⟨2, _⟩ => by show r.val = r.val + 0; omega
      | ⟨3, _⟩ => by show 2 + q.val = q.val + 2; omega)
  have e2 : idx_main_v21 (idx_main_v22 (idx_main_v24 (idx_main_v26 (ix5 n oc ic r q)))) = ix4 oc ic 0 2 :=
    funext fun a => Fin.ext (match a with
      | ⟨0, _⟩ => by show (oc.val * 32 + ic.val) / 32 = oc.val; omega
      | ⟨1, _⟩ => by show (oc.val * 32 + ic.val) / 1 % 32 = ic.val; omega
      | ⟨2, _⟩ => by show 0 = 0; omega
      | ⟨3, _⟩ => by show 2 + 0 = 2; omega)
  rw [e1, e2]
  rfl

/-- The tap's maximum over the input channels (a host reduction over axis 2 from −∞), through its upper bounds. -/
theorem red2_le (x0 : S8x32x96x96.Idx → EReal) (x1 : S32x32x3x3.Idx → EReal) (n : Fin 8) (oc : Fin 32) (r q : Fin 96) (c' : EReal) :
    val_main_v28 (F := Ideal) x0 x1 (ix4 n oc r q) ≤ c'
      ↔ ∀ ic : Fin 32, min (val_main_v0 (F := Ideal) x0 (ix4 n ic (sh r 0) (sh q 2))) (x1 (ix4 oc ic 0 2)) ≤ c' := by
  unfold val_main_v28
  rw [Host.reduce_eq_fold_single (FloatOps.maximumf (F := Ideal) (φ := .f32)) _ _ reducesTo_S8x32x32x96x96_S8x32x96x96_d2 hred h_S_ (ix4 n oc r q)]
  refine ((fold_max_univ_le _ _ c').trans (and_iff_right ?_)).trans (forall_congr' fun ic => ?_)
  · show Ideal.ofBits .f32 0xFF800000#32 ≤ c'
    rw [ninf_eq_bot]; exact bot_le
  · show val_main_v27 (F := Ideal) x0 x1 (hred.lift (ix4 n oc r q) ic) ≤ c' ↔ _
    rw [lift_eq n oc ic r q]
    exact Eq.to_iff (congrArg (fun z => z ≤ c') (tap2_term x0 x1 n oc ic r q))

/-! ### Tap (1, 0) -/

/-- Entry (n, oc, ic, r, q) of the tap's [8, 32, 32, 96, 96] array of minima: the slice of the padded input at offset (1, 0),
    spread over the output channels, against the weights' [oc, ic] slice at (1, 0), spread over batch and plane. -/
theorem tap3_term (x0 : S8x32x96x96.Idx → EReal) (x1 : S32x32x3x3.Idx → EReal) (n : Fin 8) (oc ic : Fin 32) (r q : Fin 96) :
    val_main_v37 (F := Ideal) x0 x1 (ix5 n oc ic r q)
      = min (val_main_v0 (F := Ideal) x0 (ix4 n ic (sh r 1) (sh q 0))) (x1 (ix4 oc ic 1 0)) := by
  have hoc := oc.isLt; have hic := ic.isLt
  rw [val_main_v37_apply, val_main_v35_apply, val_main_v33_apply, val_main_v30_apply, val_main_v36_apply, val_main_v34_apply, val_main_v32_apply, val_main_v31_apply]
  have e1 : idx_main_v30 (idx_main_v33 (idx_main_v35 (ix5 n oc ic r q))) = ix4 n ic (sh r 1) (sh q 0) :=
    funext fun a => Fin.ext (match a with
      | ⟨0, _⟩ => rfl
      | ⟨1, _⟩ => rfl
      | ⟨2, _⟩ => by show 1 + r.val = r.val + 1; omega
      | ⟨3, _⟩ => by show q.val = q.val + 0; omega)
  have e2 : idx_main_v31 (idx_main_v32 (idx_main_v34 (idx_main_v36 (ix5 n oc ic r q)))) = ix4 oc ic 1 0 :=
    funext fun a => Fin.ext (match a with
      | ⟨0, _⟩ => by show (oc.val * 32 + ic.val) / 32 = oc.val; omega
      | ⟨1, _⟩ => by show (oc.val * 32 + ic.val) / 1 % 32 = ic.val; omega
      | ⟨2, _⟩ => by show 1 + 0 = 1; omega
      | ⟨3, _⟩ => by show 0 = 0; omega)
  rw [e1, e2]
  rfl

/-- The tap's maximum over the input channels (a host reduction over axis 2 from −∞), through its upper bounds. -/
theorem red3_le (x0 : S8x32x96x96.Idx → EReal) (x1 : S32x32x3x3.Idx → EReal) (n : Fin 8) (oc : Fin 32) (r q : Fin 96) (c' : EReal) :
    val_main_v38 (F := Ideal) x0 x1 (ix4 n oc r q) ≤ c'
      ↔ ∀ ic : Fin 32, min (val_main_v0 (F := Ideal) x0 (ix4 n ic (sh r 1) (sh q 0))) (x1 (ix4 oc ic 1 0)) ≤ c' := by
  unfold val_main_v38
  rw [Host.reduce_eq_fold_single (FloatOps.maximumf (F := Ideal) (φ := .f32)) _ _ reducesTo_S8x32x32x96x96_S8x32x96x96_d2 hred h_S_ (ix4 n oc r q)]
  refine ((fold_max_univ_le _ _ c').trans (and_iff_right ?_)).trans (forall_congr' fun ic => ?_)
  · show Ideal.ofBits .f32 0xFF800000#32 ≤ c'
    rw [ninf_eq_bot]; exact bot_le
  · show val_main_v37 (F := Ideal) x0 x1 (hred.lift (ix4 n oc r q) ic) ≤ c' ↔ _
    rw [lift_eq n oc ic r q]
    exact Eq.to_iff (congrArg (fun z => z ≤ c') (tap3_term x0 x1 n oc ic r q))

/-! ### Tap (1, 1) -/

/-- Entry (n, oc, ic, r, q) of the tap's [8, 32, 32, 96, 96] array of minima: the slice of the padded input at offset (1, 1),
    spread over the output channels, against the weights' [oc, ic] slice at (1, 1), spread over batch and plane. -/
theorem tap4_term (x0 : S8x32x96x96.Idx → EReal) (x1 : S32x32x3x3.Idx → EReal) (n : Fin 8) (oc ic : Fin 32) (r q : Fin 96) :
    val_main_v47 (F := Ideal) x0 x1 (ix5 n oc ic r q)
      = min (val_main_v0 (F := Ideal) x0 (ix4 n ic (sh r 1) (sh q 1))) (x1 (ix4 oc ic 1 1)) := by
  have hoc := oc.isLt; have hic := ic.isLt
  rw [val_main_v47_apply, val_main_v45_apply, val_main_v43_apply, val_main_v40_apply, val_main_v46_apply, val_main_v44_apply, val_main_v42_apply, val_main_v41_apply]
  have e1 : idx_main_v40 (idx_main_v43 (idx_main_v45 (ix5 n oc ic r q))) = ix4 n ic (sh r 1) (sh q 1) :=
    funext fun a => Fin.ext (match a with
      | ⟨0, _⟩ => rfl
      | ⟨1, _⟩ => rfl
      | ⟨2, _⟩ => by show 1 + r.val = r.val + 1; omega
      | ⟨3, _⟩ => by show 1 + q.val = q.val + 1; omega)
  have e2 : idx_main_v41 (idx_main_v42 (idx_main_v44 (idx_main_v46 (ix5 n oc ic r q)))) = ix4 oc ic 1 1 :=
    funext fun a => Fin.ext (match a with
      | ⟨0, _⟩ => by show (oc.val * 32 + ic.val) / 32 = oc.val; omega
      | ⟨1, _⟩ => by show (oc.val * 32 + ic.val) / 1 % 32 = ic.val; omega
      | ⟨2, _⟩ => by show 1 + 0 = 1; omega
      | ⟨3, _⟩ => by show 1 + 0 = 1; omega)
  rw [e1, e2]
  rfl

/-- The tap's maximum over the input channels (a host reduction over axis 2 from −∞), through its upper bounds. -/
theorem red4_le (x0 : S8x32x96x96.Idx → EReal) (x1 : S32x32x3x3.Idx → EReal) (n : Fin 8) (oc : Fin 32) (r q : Fin 96) (c' : EReal) :
    val_main_v48 (F := Ideal) x0 x1 (ix4 n oc r q) ≤ c'
      ↔ ∀ ic : Fin 32, min (val_main_v0 (F := Ideal) x0 (ix4 n ic (sh r 1) (sh q 1))) (x1 (ix4 oc ic 1 1)) ≤ c' := by
  unfold val_main_v48
  rw [Host.reduce_eq_fold_single (FloatOps.maximumf (F := Ideal) (φ := .f32)) _ _ reducesTo_S8x32x32x96x96_S8x32x96x96_d2 hred h_S_ (ix4 n oc r q)]
  refine ((fold_max_univ_le _ _ c').trans (and_iff_right ?_)).trans (forall_congr' fun ic => ?_)
  · show Ideal.ofBits .f32 0xFF800000#32 ≤ c'
    rw [ninf_eq_bot]; exact bot_le
  · show val_main_v47 (F := Ideal) x0 x1 (hred.lift (ix4 n oc r q) ic) ≤ c' ↔ _
    rw [lift_eq n oc ic r q]
    exact Eq.to_iff (congrArg (fun z => z ≤ c') (tap4_term x0 x1 n oc ic r q))

/-! ### Tap (1, 2) -/

/-- Entry (n, oc, ic, r, q) of the tap's [8, 32, 32, 96, 96] array of minima: the slice of the padded input at offset (1, 2),
    spread over the output channels, against the weights' [oc, ic] slice at (1, 2), spread over batch and plane. -/
theorem tap5_term (x0 : S8x32x96x96.Idx → EReal) (x1 : S32x32x3x3.Idx → EReal) (n : Fin 8) (oc ic : Fin 32) (r q : Fin 96) :
    val_main_v57 (F := Ideal) x0 x1 (ix5 n oc ic r q)
      = min (val_main_v0 (F := Ideal) x0 (ix4 n ic (sh r 1) (sh q 2))) (x1 (ix4 oc ic 1 2)) := by
  have hoc := oc.isLt; have hic := ic.isLt
  rw [val_main_v57_apply, val_main_v55_apply, val_main_v53_apply, val_main_v50_apply, val_main_v56_apply, val_main_v54_apply, val_main_v52_apply, val_main_v51_apply]
  have e1 : idx_main_v50 (idx_main_v53 (idx_main_v55 (ix5 n oc ic r q))) = ix4 n ic (sh r 1) (sh q 2) :=
    funext fun a => Fin.ext (match a with
      | ⟨0, _⟩ => rfl
      | ⟨1, _⟩ => rfl
      | ⟨2, _⟩ => by show 1 + r.val = r.val + 1; omega
      | ⟨3, _⟩ => by show 2 + q.val = q.val + 2; omega)
  have e2 : idx_main_v51 (idx_main_v52 (idx_main_v54 (idx_main_v56 (ix5 n oc ic r q)))) = ix4 oc ic 1 2 :=
    funext fun a => Fin.ext (match a with
      | ⟨0, _⟩ => by show (oc.val * 32 + ic.val) / 32 = oc.val; omega
      | ⟨1, _⟩ => by show (oc.val * 32 + ic.val) / 1 % 32 = ic.val; omega
      | ⟨2, _⟩ => by show 1 + 0 = 1; omega
      | ⟨3, _⟩ => by show 2 + 0 = 2; omega)
  rw [e1, e2]
  rfl

/-- The tap's maximum over the input channels (a host reduction over axis 2 from −∞), through its upper bounds. -/
theorem red5_le (x0 : S8x32x96x96.Idx → EReal) (x1 : S32x32x3x3.Idx → EReal) (n : Fin 8) (oc : Fin 32) (r q : Fin 96) (c' : EReal) :
    val_main_v58 (F := Ideal) x0 x1 (ix4 n oc r q) ≤ c'
      ↔ ∀ ic : Fin 32, min (val_main_v0 (F := Ideal) x0 (ix4 n ic (sh r 1) (sh q 2))) (x1 (ix4 oc ic 1 2)) ≤ c' := by
  unfold val_main_v58
  rw [Host.reduce_eq_fold_single (FloatOps.maximumf (F := Ideal) (φ := .f32)) _ _ reducesTo_S8x32x32x96x96_S8x32x96x96_d2 hred h_S_ (ix4 n oc r q)]
  refine ((fold_max_univ_le _ _ c').trans (and_iff_right ?_)).trans (forall_congr' fun ic => ?_)
  · show Ideal.ofBits .f32 0xFF800000#32 ≤ c'
    rw [ninf_eq_bot]; exact bot_le
  · show val_main_v57 (F := Ideal) x0 x1 (hred.lift (ix4 n oc r q) ic) ≤ c' ↔ _
    rw [lift_eq n oc ic r q]
    exact Eq.to_iff (congrArg (fun z => z ≤ c') (tap5_term x0 x1 n oc ic r q))

/-! ### Tap (2, 0) -/

/-- Entry (n, oc, ic, r, q) of the tap's [8, 32, 32, 96, 96] array of minima: the slice of the padded input at offset (2, 0),
    spread over the output channels, against the weights' [oc, ic] slice at (2, 0), spread over batch and plane. -/
theorem tap6_term (x0 : S8x32x96x96.Idx → EReal) (x1 : S32x32x3x3.Idx → EReal) (n : Fin 8) (oc ic : Fin 32) (r q : Fin 96) :
    val_main_v67 (F := Ideal) x0 x1 (ix5 n oc ic r q)
      = min (val_main_v0 (F := Ideal) x0 (ix4 n ic (sh r 2) (sh q 0))) (x1 (ix4 oc ic 2 0)) := by
  have hoc := oc.isLt; have hic := ic.isLt
  rw [val_main_v67_apply, val_main_v65_apply, val_main_v63_apply, val_main_v60_apply, val_main_v66_apply, val_main_v64_apply, val_main_v62_apply, val_main_v61_apply]
  have e1 : idx_main_v60 (idx_main_v63 (idx_main_v65 (ix5 n oc ic r q))) = ix4 n ic (sh r 2) (sh q 0) :=
    funext fun a => Fin.ext (match a with
      | ⟨0, _⟩ => rfl
      | ⟨1, _⟩ => rfl
      | ⟨2, _⟩ => by show 2 + r.val = r.val + 2; omega
      | ⟨3, _⟩ => by show q.val = q.val + 0; omega)
  have e2 : idx_main_v61 (idx_main_v62 (idx_main_v64 (idx_main_v66 (ix5 n oc ic r q)))) = ix4 oc ic 2 0 :=
    funext fun a => Fin.ext (match a with
      | ⟨0, _⟩ => by show (oc.val * 32 + ic.val) / 32 = oc.val; omega
      | ⟨1, _⟩ => by show (oc.val * 32 + ic.val) / 1 % 32 = ic.val; omega
      | ⟨2, _⟩ => by show 2 + 0 = 2; omega
      | ⟨3, _⟩ => by show 0 = 0; omega)
  rw [e1, e2]
  rfl

/-- The tap's maximum over the input channels (a host reduction over axis 2 from −∞), through its upper bounds. -/
theorem red6_le (x0 : S8x32x96x96.Idx → EReal) (x1 : S32x32x3x3.Idx → EReal) (n : Fin 8) (oc : Fin 32) (r q : Fin 96) (c' : EReal) :
    val_main_v68 (F := Ideal) x0 x1 (ix4 n oc r q) ≤ c'
      ↔ ∀ ic : Fin 32, min (val_main_v0 (F := Ideal) x0 (ix4 n ic (sh r 2) (sh q 0))) (x1 (ix4 oc ic 2 0)) ≤ c' := by
  unfold val_main_v68
  rw [Host.reduce_eq_fold_single (FloatOps.maximumf (F := Ideal) (φ := .f32)) _ _ reducesTo_S8x32x32x96x96_S8x32x96x96_d2 hred h_S_ (ix4 n oc r q)]
  refine ((fold_max_univ_le _ _ c').trans (and_iff_right ?_)).trans (forall_congr' fun ic => ?_)
  · show Ideal.ofBits .f32 0xFF800000#32 ≤ c'
    rw [ninf_eq_bot]; exact bot_le
  · show val_main_v67 (F := Ideal) x0 x1 (hred.lift (ix4 n oc r q) ic) ≤ c' ↔ _
    rw [lift_eq n oc ic r q]
    exact Eq.to_iff (congrArg (fun z => z ≤ c') (tap6_term x0 x1 n oc ic r q))

/-! ### Tap (2, 1) -/

/-- Entry (n, oc, ic, r, q) of the tap's [8, 32, 32, 96, 96] array of minima: the slice of the padded input at offset (2, 1),
    spread over the output channels, against the weights' [oc, ic] slice at (2, 1), spread over batch and plane. -/
theorem tap7_term (x0 : S8x32x96x96.Idx → EReal) (x1 : S32x32x3x3.Idx → EReal) (n : Fin 8) (oc ic : Fin 32) (r q : Fin 96) :
    val_main_v77 (F := Ideal) x0 x1 (ix5 n oc ic r q)
      = min (val_main_v0 (F := Ideal) x0 (ix4 n ic (sh r 2) (sh q 1))) (x1 (ix4 oc ic 2 1)) := by
  have hoc := oc.isLt; have hic := ic.isLt
  rw [val_main_v77_apply, val_main_v75_apply, val_main_v73_apply, val_main_v70_apply, val_main_v76_apply, val_main_v74_apply, val_main_v72_apply, val_main_v71_apply]
  have e1 : idx_main_v70 (idx_main_v73 (idx_main_v75 (ix5 n oc ic r q))) = ix4 n ic (sh r 2) (sh q 1) :=
    funext fun a => Fin.ext (match a with
      | ⟨0, _⟩ => rfl
      | ⟨1, _⟩ => rfl
      | ⟨2, _⟩ => by show 2 + r.val = r.val + 2; omega
      | ⟨3, _⟩ => by show 1 + q.val = q.val + 1; omega)
  have e2 : idx_main_v71 (idx_main_v72 (idx_main_v74 (idx_main_v76 (ix5 n oc ic r q)))) = ix4 oc ic 2 1 :=
    funext fun a => Fin.ext (match a with
      | ⟨0, _⟩ => by show (oc.val * 32 + ic.val) / 32 = oc.val; omega
      | ⟨1, _⟩ => by show (oc.val * 32 + ic.val) / 1 % 32 = ic.val; omega
      | ⟨2, _⟩ => by show 2 + 0 = 2; omega
      | ⟨3, _⟩ => by show 1 + 0 = 1; omega)
  rw [e1, e2]
  rfl

/-- The tap's maximum over the input channels (a host reduction over axis 2 from −∞), through its upper bounds. -/
theorem red7_le (x0 : S8x32x96x96.Idx → EReal) (x1 : S32x32x3x3.Idx → EReal) (n : Fin 8) (oc : Fin 32) (r q : Fin 96) (c' : EReal) :
    val_main_v78 (F := Ideal) x0 x1 (ix4 n oc r q) ≤ c'
      ↔ ∀ ic : Fin 32, min (val_main_v0 (F := Ideal) x0 (ix4 n ic (sh r 2) (sh q 1))) (x1 (ix4 oc ic 2 1)) ≤ c' := by
  unfold val_main_v78
  rw [Host.reduce_eq_fold_single (FloatOps.maximumf (F := Ideal) (φ := .f32)) _ _ reducesTo_S8x32x32x96x96_S8x32x96x96_d2 hred h_S_ (ix4 n oc r q)]
  refine ((fold_max_univ_le _ _ c').trans (and_iff_right ?_)).trans (forall_congr' fun ic => ?_)
  · show Ideal.ofBits .f32 0xFF800000#32 ≤ c'
    rw [ninf_eq_bot]; exact bot_le
  · show val_main_v77 (F := Ideal) x0 x1 (hred.lift (ix4 n oc r q) ic) ≤ c' ↔ _
    rw [lift_eq n oc ic r q]
    exact Eq.to_iff (congrArg (fun z => z ≤ c') (tap7_term x0 x1 n oc ic r q))

/-! ### Tap (2, 2) -/

/-- Entry (n, oc, ic, r, q) of the tap's [8, 32, 32, 96, 96] array of minima: the slice of the padded input at offset (2, 2),
    spread over the output channels, against the weights' [oc, ic] slice at (2, 2), spread over batch and plane. -/
theorem tap8_term (x0 : S8x32x96x96.Idx → EReal) (x1 : S32x32x3x3.Idx → EReal) (n : Fin 8) (oc ic : Fin 32) (r q : Fin 96) :
    val_main_v87 (F := Ideal) x0 x1 (ix5 n oc ic r q)
      = min (val_main_v0 (F := Ideal) x0 (ix4 n ic (sh r 2) (sh q 2))) (x1 (ix4 oc ic 2 2)) := by
  have hoc := oc.isLt; have hic := ic.isLt
  rw [val_main_v87_apply, val_main_v85_apply, val_main_v83_apply, val_main_v80_apply, val_main_v86_apply, val_main_v84_apply, val_main_v82_apply, val_main_v81_apply]
  have e1 : idx_main_v80 (idx_main_v83 (idx_main_v85 (ix5 n oc ic r q))) = ix4 n ic (sh r 2) (sh q 2) :=
    funext fun a => Fin.ext (match a with
      | ⟨0, _⟩ => rfl
      | ⟨1, _⟩ => rfl
      | ⟨2, _⟩ => by show 2 + r.val = r.val + 2; omega
      | ⟨3, _⟩ => by show 2 + q.val = q.val + 2; omega)
  have e2 : idx_main_v81 (idx_main_v82 (idx_main_v84 (idx_main_v86 (ix5 n oc ic r q)))) = ix4 oc ic 2 2 :=
    funext fun a => Fin.ext (match a with
      | ⟨0, _⟩ => by show (oc.val * 32 + ic.val) / 32 = oc.val; omega
      | ⟨1, _⟩ => by show (oc.val * 32 + ic.val) / 1 % 32 = ic.val; omega
      | ⟨2, _⟩ => by show 2 + 0 = 2; omega
      | ⟨3, _⟩ => by show 2 + 0 = 2; omega)
  rw [e1, e2]
  rfl

/-- The tap's maximum over the input channels (a host reduction over axis 2 from −∞), through its upper bounds. -/
theorem red8_le (x0 : S8x32x96x96.Idx → EReal) (x1 : S32x32x3x3.Idx → EReal) (n : Fin 8) (oc : Fin 32) (r q : Fin 96) (c' : EReal) :
    val_main_v88 (F := Ideal) x0 x1 (ix4 n oc r q) ≤ c'
      ↔ ∀ ic : Fin 32, min (val_main_v0 (F := Ideal) x0 (ix4 n ic (sh r 2) (sh q 2))) (x1 (ix4 oc ic 2 2)) ≤ c' := by
  unfold val_main_v88
  rw [Host.reduce_eq_fold_single (FloatOps.maximumf (F := Ideal) (φ := .f32)) _ _ reducesTo_S8x32x32x96x96_S8x32x96x96_d2 hred h_S_ (ix4 n oc r q)]
  refine ((fold_max_univ_le _ _ c').trans (and_iff_right ?_)).trans (forall_congr' fun ic => ?_)
  · show Ideal.ofBits .f32 0xFF800000#32 ≤ c'
    rw [ninf_eq_bot]; exact bot_le
  · show val_main_v87 (F := Ideal) x0 x1 (hred.lift (ix4 n oc r q) ic) ≤ c' ↔ _
    rw [lift_eq n oc ic r q]
    exact Eq.to_iff (congrArg (fun z => z ≤ c') (tap8_term x0 x1 n oc ic r q))

/-! ## The nine taps joined -/

/-- THE REFERENCE'S RESULT at (n, oc, r, q), through its upper bounds. -/
theorem ref_le (x0 : S8x32x96x96.Idx → EReal) (x1 : S32x32x3x3.Idx → EReal) (n : Fin 8) (oc : Fin 32) (r q : Fin 96) (c' : EReal) :
    val_main_v89 (F := Ideal) x0 x1 (ix4 n oc r q) ≤ c'
      ↔ ∀ (kh kw : Fin 3) (ic : Fin 32), min (val_main_v0 (F := Ideal) x0 (ix4 n ic (sh r kh) (sh q kw))) (x1 (ix4 oc ic kh kw)) ≤ c' := by
  rw [val_main_v89_apply, val_main_v79_apply, val_main_v69_apply, val_main_v59_apply, val_main_v49_apply, val_main_v39_apply,
    val_main_v29_apply, val_main_v19_apply]
  simp only [Ideal.maximumf_def, max_le_iff]
  rw [red0_le, red1_le, red2_le, red3_le, red4_le, red5_le, red6_le, red7_le, red8_le]
  constructor
  · rintro ⟨⟨⟨⟨⟨⟨⟨⟨h0, h1⟩, h2⟩, h3⟩, h4⟩, h5⟩, h6⟩, h7⟩, h8⟩ kh kw ic
    match kh, kw with
    | ⟨0, _⟩, ⟨0, _⟩ => exact h0 ic
    | ⟨0, _⟩, ⟨1, _⟩ => exact h1 ic
    | ⟨0, _⟩, ⟨2, _⟩ => exact h2 ic
    | ⟨1, _⟩, ⟨0, _⟩ => exact h3 ic
    | ⟨1, _⟩, ⟨1, _⟩ => exact h4 ic
    | ⟨1, _⟩, ⟨2, _⟩ => exact h5 ic
    | ⟨2, _⟩, ⟨0, _⟩ => exact h6 ic
    | ⟨2, _⟩, ⟨1, _⟩ => exact h7 ic
    | ⟨2, _⟩, ⟨2, _⟩ => exact h8 ic
  · intro h
    exact ⟨⟨⟨⟨⟨⟨⟨⟨h 0 0, h 0 1⟩, h 0 2⟩, h 1 0⟩, h 1 1⟩, h 1 2⟩, h 2 0⟩, h 2 1⟩, h 2 2⟩

/-- THE REFERENCE'S RESULT is the convolution of its padded input and the weights. -/
theorem ref_eq (x0 : S8x32x96x96.Idx → EReal) (x1 : S32x32x3x3.Idx → EReal) :
    val_main_v89 (F := Ideal) x0 x1 = conv (val_main_v0 (F := Ideal) x0) x1 := by
  funext idx
  obtain ⟨n, oc, r, q, rfl⟩ : ∃ (n : Fin 8) (oc : Fin 32) (r q : Fin 96), idx = ix4 n oc r q := ⟨idx 0, idx 1, idx 2, idx 3, eq_ix4 idx⟩
  refine eq_of_same_upper fun c' => ?_
  rw [ref_le, conv_le]

end Cert.ReferenceIdeal.RefValue

end
-- ==== Proof.lean ====
/-
  The max–min semifield "convolution": out[n, oc, r, q] = max over (ic, kh, kw) of min (x_pad[n, ic, r + kh, q + kw], k[oc, ic, kh, kw]),
  a Pallas kernel against its jnp reference, equal at the extended reals.

  Both programs pad the input with one row and one column of −∞ on each side of every plane, by the same operation, so the
  padded array is one value `P` of the input on both sides. The kernel, at grid point `n`, starts a running maximum at −∞ and
  runs nine loops (one per tap (kh, kw), 32 trips each, one per input channel), each trip taking the maximum with the
  minimum of a shifted window of plane `ic` of `P`'s block `n` and the weights' vector at (ic, kh, kw, ·) of the transposed
  weights. The reference, tap by tap, forms all the minima at once, reduces them by `max` over the input channels from −∞,
  and joins the nine results by `max`. Both are the maximum of the same 288 terms per entry; `max` is associative,
  commutative and idempotent on the extended reals and −∞ is its neutral element, so the grouping, the order and the
  starting value do not matter. The proof never rearranges maxima: a value of a linear order is determined by its upper
  bounds, an upper bound of a maximum is a common upper bound of its arguments, and both results have, at every entry,
  exactly the common upper bounds of the 288 terms (Proof/MaxMinSpec.lean). No finiteness of the inputs is used.

  The modules: MaxMinSpec (the specification `conv` and the order facts), KernelTap (one trip, one loop), KernelBlock (the
  nine loops and the store: the block a grid point leaves), KernelArray (the eight blocks are the result array; the run),
  RefValue (the reference's result is `conv`). The frames are the programs' runs with the result dropped; the idealization
  rewrote no operation, so `preserves` has nothing to state.
-/
import proofs.«136413_j72988674228358_2_alg».proof.Defs
import proofs.«136413_j72988674228358_2_alg».proof.Proof.Gen.Kernel
import proofs.«136413_j72988674228358_2_alg».proof.Proof.GenFix.Kernel.Frame
import proofs.«136413_j72988674228358_2_alg».proof.Proof.Gen.KernelIdeal
import proofs.«136413_j72988674228358_2_alg».proof.Proof.GenFix.KernelIdeal.Frame
import proofs.«136413_j72988674228358_2_alg».proof.Proof.GenFix.KernelIdeal.Value
import proofs.«136413_j72988674228358_2_alg».proof.Proof.Gen.ReferenceIdeal
import proofs.«136413_j72988674228358_2_alg».proof.Proof.Gen.Pre_finite_inputs
import proofs.«136413_j72988674228358_2_alg».proof.Proof.Gen.ReferenceIdeal.Run
import proofs.«136413_j72988674228358_2_alg».proof.Proof.Gen.ReferenceIdeal.Read
import proofs.«136413_j72988674228358_2_alg».proof.Proof.MaxMinSpec
import proofs.«136413_j72988674228358_2_alg».proof.Proof.KernelArray
import proofs.«136413_j72988674228358_2_alg».proof.Proof.RefValue
import Idealize.ShloMosaic.Adequacy
import Idealize.ShloMosaic.Init

noncomputable section

namespace Cert.Proof

open Idealize.ShloMosaic Idealize.ShloMosaic.TcCoe Idealize.SL.Sem

/-- The reference's padded input is the kernel's: the same `pad` of the same array with the same −∞ scalar. -/
theorem padded_eq (m : (ℓ : Loc Cert.KernelIdeal.nD Cert.KernelIdeal.τ Cert.KernelIdeal.sig) → Buf (Elt Ideal) ℓ) (c : Dev Cert.KernelIdeal.nD) :
    Cert.ReferenceIdeal.Read.val_main_v0 (F := Ideal) (m ((c.tc : Thread Cert.KernelIdeal.nD Cert.KernelIdeal.τ).loc Cert.KernelIdeal.main_arg0))
      = (Cert.KernelIdeal.Gen.V m c Cert.KernelIdeal.main_v0 : Cert.KernelIdeal.S8x32x98x98.Idx → EReal) := by
  rw [Cert.KernelIdeal.Whole.V_padded]
  rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealized kernel's result array ends at the convolution of the padded input and the weights (KernelArray), and so
    does the reference's (RefValue), from memories that agree on the two arguments. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v89_eq, (hagree c).1, (hagree c).2, Cert.ReferenceIdeal.RefValue.ref_eq, padded_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
